-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S256x128 : Shape := ⟨2, ![256, 128]⟩
abbrev S50000x1 : Shape := ⟨2, ![50000, 1]⟩
abbrev S256x384 : Shape := ⟨2, ![256, 384]⟩
abbrev S50000x384 : Shape := ⟨2, ![50000, 384]⟩

abbrev nBuf : Space → Nat
  | .hbm => 97
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S_, .f32⟩
  | .hbm, ⟨84, _⟩ => ⟨S256x128, .f32⟩
  | .hbm, ⟨85, _⟩ => ⟨S50000x1, .i32⟩
  | .hbm, ⟨86, _⟩ => ⟨S256x128, .f32⟩
  | .hbm, ⟨87, _⟩ => ⟨S_, .f32⟩
  | .hbm, ⟨88, _⟩ => ⟨S256x128, .f32⟩
  | .hbm, ⟨89, _⟩ => ⟨S50000x1, .i32⟩
  | .hbm, ⟨90, _⟩ => ⟨S256x128, .f32⟩
  | .hbm, ⟨91, _⟩ => ⟨S_, .f32⟩
  | .hbm, ⟨92, _⟩ => ⟨S256x128, .f32⟩
  | .hbm, ⟨93, _⟩ => ⟨S50000x1, .i32⟩
  | .hbm, ⟨94, _⟩ => ⟨S256x128, .f32⟩
  | .hbm, ⟨95, _⟩ => ⟨S256x384, .f32⟩
  | .hbm, ⟨96, _⟩ => ⟨S50000x384, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  concatenates_S256x128_S256x128_S256x128_S256x384_d1 : Shape.Concatenates [S256x128, S256x128, S256x128] S256x384 1
  concatenates_S50000x128_S50000x128_S50000x128_S50000x384_d1 : Shape.Concatenates [S50000x128, S50000x128, S50000x128] S50000x384 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S256x128_S50000x1_S50000x128_1_0_0_1_wf : ScatterDims.WF S256x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256x128 : Shape := ⟨2, ![256, 128]⟩
abbrev S50000x1 : Shape := ⟨2, ![50000, 1]⟩
abbrev S256x384 : Shape := ⟨2, ![256, 384]⟩
abbrev S50000x384 : Shape := ⟨2, ![50000, 384]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x128, .f32⟩
  | 61 => ⟨S1x128x128, .f32⟩
  | 62 => ⟨S128x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S256x128, .f32⟩
  | 121 => ⟨S50000x1, .i32⟩
  | 122 => ⟨S256x128, .f32⟩
  | 123 => ⟨S_, .f32⟩
  | 124 => ⟨S256x128, .f32⟩
  | 125 => ⟨S50000x1, .i32⟩
  | 126 => ⟨S256x128, .f32⟩
  | 127 => ⟨S_, .f32⟩
  | _ => ⟨S50000x128, .f32⟩

abbrev hbmTy0_1 (i : Nat) : BufTy := match i % 128 with
  | 0 => ⟨S256x128, .f32⟩
  | 1 => ⟨S50000x1, .i32⟩
  | 2 => ⟨S256x128, .f32⟩
  | 3 => ⟨S256x384, .f32⟩
  | 4 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_cst : Ref sig .tc := ⟨.hbm, 44, rfl⟩
abbrev main_call1_v0 : Ref sig .tc := ⟨.hbm, 45, rfl⟩
abbrev main_v32 : Ref sig .tc := ⟨.hbm, 46, rfl⟩
abbrev main_c_1 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call2_cst : Ref sig .tc := ⟨.hbm, 69, rfl⟩
abbrev main_call2_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call3_cst : Ref sig .tc := ⟨.hbm, 80, rfl⟩
abbrev main_call3_v0 : Ref sig .tc := ⟨.hbm, 81, rfl⟩
abbrev main_v61 : Ref sig .tc := ⟨.hbm, 82, rfl⟩
abbrev main_c_4 : Ref sig .tc := ⟨.hbm, 83, rfl⟩
abbrev main_v62 : Ref sig .tc := ⟨.hbm, 84, rfl⟩
abbrev main_v63 : Ref sig .tc := ⟨.hbm, 85, rfl⟩
abbrev main_c_5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call4_cst : Ref sig .tc := ⟨.hbm, 105, rfl⟩
abbrev main_call4_v0 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call5_cst : Ref sig .tc := ⟨.hbm, 116, rfl⟩
abbrev main_call5_v0 : Ref sig .tc := ⟨.hbm, 117, rfl⟩
abbrev main_v90 : Ref sig .tc := ⟨.hbm, 118, rfl⟩
abbrev main_cst_7 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_8 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_9 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  concatenates_S256x128_S256x128_S256x128_S256x384_d1 : Shape.Concatenates [S256x128, S256x128, S256x128] S256x384 1
  concatenates_S50000x128_S50000x128_S50000x128_S50000x384_d1 : Shape.Concatenates [S50000x128, S50000x128, S50000x128] S50000x384 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.K.Region0.lean ====
/-
  Region 0 of the program: the pallas_call of layer 1's perceptron, on a grid of 25 points, each point one tile of
  2000 rows.  Stated at a parameter `V`, the buffers' contents when the region is entered.

  At a point the body reads seven staging buffers whole — the tile of `h`, the tile of the neighbours' sum, the two
  weight matrices and the two bias rows, and (unused) the output tile — and writes the output tile whole, with the
  perceptron of what it read (`out0_6`: one store, one piece).  An input's staging buffer holds its block of the
  array at every point, whether or not the pipeline fetched it there: the weights and biases are fetched once, their
  block index never moves.  From that the pipeline's proof data (`dat0`) and the body's obligation at every point.
-/
import proofs.«110547_j30013231464612_1_alg».proof.Proof.Gen.Kernel.Launch
import proofs.«110547_j30013231464612_1_alg».proof.Proof.Gen.Kernel.Skeleton
import proofs.«110547_j30013231464612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not, for any proof data
    whose array is `V`'s and whose body leaves the block in place: unfetched, the block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_a : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output tile after the body, from the six input blocks: one store of the perceptron's value. -/
def out0_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r0_a, k0_pay1 (View.ld x0 r0_a) (View.ld x1 r0_a) (View.ld x2 r0_w) (View.ld x3 r0_b) (View.ld x4 r0_w) (View.ld x5 r0_b)⟩]

/-- The one store covers the tile. -/
theorem cover0_6 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

/-! ## The body's triple -/

set_option maxHeartbeats 1000000 in
/-- The body on whole staging buffers, the inputs' at contents `x0 … x5` and the output's at anything, runs to the
    continuation with the inputs as they were and the output at `out0_6` of them. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body at point `t` each input's buffer at its block and the output's
    at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  Region 1 of the program: the pallas_call of layer 2's perceptron, on a grid of 25 points, each point one tile of
  2000 rows.  Stated at a parameter `V`, the buffers' contents when the region is entered.

  At a point the body reads seven staging buffers whole — the tile of `h`, the tile of the neighbours' sum, the two
  weight matrices and the two bias rows, and (unused) the output tile — and writes the output tile whole, with the
  perceptron of what it read (`out1_6`: one store, one piece).  An input's staging buffer holds its block of the
  array at every point, whether or not the pipeline fetched it there: the weights and biases are fetched once, their
  block index never moves.  From that the pipeline's proof data (`dat1`) and the body's obligation at every point.
-/
import proofs.«110547_j30013231464612_1_alg».proof.Proof.Gen.Kernel.Launch
import proofs.«110547_j30013231464612_1_alg».proof.Proof.Gen.Kernel.Skeleton
import proofs.«110547_j30013231464612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not, for any proof data
    whose array is `V`'s and whose body leaves the block in place: unfetched, the block index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_a : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- The output tile after the body, from the six input blocks: one store of the perceptron's value. -/
def out1_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r1_a, k1_pay1 (View.ld x0 r1_a) (View.ld x1 r1_a) (View.ld x2 r1_w) (View.ld x3 r1_b) (View.ld x4 r1_w) (View.ld x5 r1_b)⟩]

/-- The one store covers the tile. -/
theorem cover1_6 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-! ## The body's triple -/

set_option maxHeartbeats 1000000 in
/-- The body on whole staging buffers, the inputs' at contents `x0 … x5` and the output's at anything, runs to the
    continuation with the inputs as they were and the output at `out1_6` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The arrays as the region finds them; after the body at point `t` each input's buffer at its block and the output's
    at `out1_6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/-
  Region 2 of the program: the pallas_call of layer 3's perceptron, on a grid of 25 points, each point one tile of
  2000 rows.  Stated at a parameter `V`, the buffers' contents when the region is entered.

  At a point the body reads seven staging buffers whole — the tile of `h`, the tile of the neighbours' sum, the two
  weight matrices and the two bias rows, and (unused) the output tile — and writes the output tile whole, with the
  perceptron of what it read (`out2_6`: one store, one piece).  An input's staging buffer holds its block of the
  array at every point, whether or not the pipeline fetched it there: the weights and biases are fetched once, their
  block index never moves.  From that the pipeline's proof data (`dat2`) and the body's obligation at every point.
-/
import proofs.«110547_j30013231464612_1_alg».proof.Proof.Gen.Kernel.Launch
import proofs.«110547_j30013231464612_1_alg».proof.Proof.Gen.Kernel.Skeleton
import proofs.«110547_j30013231464612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not, for any proof data
    whose array is `V`'s and whose body leaves the block in place: unfetched, the block index has not moved. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_a : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output tile after the body, from the six input blocks: one store of the perceptron's value. -/
def out2_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r2_a, k2_pay1 (View.ld x0 r2_a) (View.ld x1 r2_a) (View.ld x2 r2_w) (View.ld x3 r2_b) (View.ld x4 r2_w) (View.ld x5 r2_b)⟩]

/-- The one store covers the tile. -/
theorem cover2_6 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-! ## The body's triple -/

set_option maxHeartbeats 1000000 in
/-- The body on whole staging buffers, the inputs' at contents `x0 … x5` and the output's at anything, runs to the
    continuation with the inputs as they were and the output at `out2_6` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input's buffer at its block and the output's
    at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The whole run of the program: four stretches of host operations around the three pallas_calls.

  The buffers' contents at each boundary are a fold from the launch memory (`W0 … W7`): a host stretch applies its
  operations; a region leaves its input arrays as it found them and its output array at what the 25 write-backs leave.
  No host operation and no region writes an argument, so each argument's buffer at the end walks back to the launch
  memory.  Each region is a segment over the thread state "every unscoped buffer at the boundary's contents, the
  generator register at some state, nothing owed"; the segments chain, and at the end every unscoped buffer is read
  against the final state (`run_all`).  The frame claim is that reading at the arguments (`frame`).
-/
import proofs.«110547_j30013231464612_1_alg».proof.Proof.K.Region0
import proofs.«110547_j30013231464612_1_alg».proof.Proof.K.Region1
import proofs.«110547_j30013231464612_1_alg».proof.Proof.K.Region2
import proofs.«110547_j30013231464612_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)

/-- After `hostOps0`: region 0's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1`: region 1's entry. -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After `hostOps2`: region 2's entry. -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves (the inputs as entered, the output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After `hostOps3`: the end. -/
abbrev W7 : Dev nD → Valuation τ sig (Elt F) := fun c => StableHlo.after hostOps3 (W6 m c)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_in m c 0 rfl
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W7`, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the class invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the class invariant and
    comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the class invariant and
    comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- Every weakly fair execution of @main from memory `m` with zero counters terminates, nothing faulting, and at the end
    every unscoped buffer of every core holds the last boundary's contents `W7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame claim at any `F`: the run terminates, faults nowhere, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c)⟩) (run_all m ρ)

end Cert.Kernel.Fr

end
-- ==== Proof.KI.Region0.lean ====
/-
  Region 0 of the program: the pallas_call of layer 1's perceptron, on a grid of 25 points, each point one tile of
  2000 rows.  Stated at a parameter `V`, the buffers' contents when the region is entered.

  At a point the body reads seven staging buffers whole — the tile of `h`, the tile of the neighbours' sum, the two
  weight matrices and the two bias rows, and (unused) the output tile — and writes the output tile whole, with the
  perceptron of what it read (`out0_6`: one store, one piece).  An input's staging buffer holds its block of the
  array at every point, whether or not the pipeline fetched it there: the weights and biases are fetched once, their
  block index never moves.  From that the pipeline's proof data (`dat0`) and the body's obligation at every point.
-/
import proofs.«110547_j30013231464612_1_alg».proof.Proof.Gen.KernelIdeal.Launch
import proofs.«110547_j30013231464612_1_alg».proof.Proof.Gen.KernelIdeal.Skeleton
import proofs.«110547_j30013231464612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not, for any proof data
    whose array is `V`'s and whose body leaves the block in place: unfetched, the block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_a : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output tile after the body, from the six input blocks: one store of the perceptron's value. -/
def out0_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r0_a, k0_pay1 (View.ld x0 r0_a) (View.ld x1 r0_a) (View.ld x2 r0_w) (View.ld x3 r0_b) (View.ld x4 r0_w) (View.ld x5 r0_b)⟩]

/-- The one store covers the tile. -/
theorem cover0_6 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

/-! ## The body's triple -/

set_option maxHeartbeats 1000000 in
/-- The body on whole staging buffers, the inputs' at contents `x0 … x5` and the output's at anything, runs to the
    continuation with the inputs as they were and the output at `out0_6` of them. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body at point `t` each input's buffer at its block and the output's
    at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Region 1 of the program: the pallas_call of layer 2's perceptron, on a grid of 25 points, each point one tile of
  2000 rows.  Stated at a parameter `V`, the buffers' contents when the region is entered.

  At a point the body reads seven staging buffers whole — the tile of `h`, the tile of the neighbours' sum, the two
  weight matrices and the two bias rows, and (unused) the output tile — and writes the output tile whole, with the
  perceptron of what it read (`out1_6`: one store, one piece).  An input's staging buffer holds its block of the
  array at every point, whether or not the pipeline fetched it there: the weights and biases are fetched once, their
  block index never moves.  From that the pipeline's proof data (`dat1`) and the body's obligation at every point.
-/
import proofs.«110547_j30013231464612_1_alg».proof.Proof.Gen.KernelIdeal.Launch
import proofs.«110547_j30013231464612_1_alg».proof.Proof.Gen.KernelIdeal.Skeleton
import proofs.«110547_j30013231464612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not, for any proof data
    whose array is `V`'s and whose body leaves the block in place: unfetched, the block index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_a : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- The output tile after the body, from the six input blocks: one store of the perceptron's value. -/
def out1_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r1_a, k1_pay1 (View.ld x0 r1_a) (View.ld x1 r1_a) (View.ld x2 r1_w) (View.ld x3 r1_b) (View.ld x4 r1_w) (View.ld x5 r1_b)⟩]

/-- The one store covers the tile. -/
theorem cover1_6 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-! ## The body's triple -/

set_option maxHeartbeats 1000000 in
/-- The body on whole staging buffers, the inputs' at contents `x0 … x5` and the output's at anything, runs to the
    continuation with the inputs as they were and the output at `out1_6` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The arrays as the region finds them; after the body at point `t` each input's buffer at its block and the output's
    at `out1_6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  Region 2 of the program: the pallas_call of layer 3's perceptron, on a grid of 25 points, each point one tile of
  2000 rows.  Stated at a parameter `V`, the buffers' contents when the region is entered.

  At a point the body reads seven staging buffers whole — the tile of `h`, the tile of the neighbours' sum, the two
  weight matrices and the two bias rows, and (unused) the output tile — and writes the output tile whole, with the
  perceptron of what it read (`out2_6`: one store, one piece).  An input's staging buffer holds its block of the
  array at every point, whether or not the pipeline fetched it there: the weights and biases are fetched once, their
  block index never moves.  From that the pipeline's proof data (`dat2`) and the body's obligation at every point.
-/
import proofs.«110547_j30013231464612_1_alg».proof.Proof.Gen.KernelIdeal.Launch
import proofs.«110547_j30013231464612_1_alg».proof.Proof.Gen.KernelIdeal.Skeleton
import proofs.«110547_j30013231464612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not, for any proof data
    whose array is `V`'s and whose body leaves the block in place: unfetched, the block index has not moved. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_a : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output tile after the body, from the six input blocks: one store of the perceptron's value. -/
def out2_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r2_a, k2_pay1 (View.ld x0 r2_a) (View.ld x1 r2_a) (View.ld x2 r2_w) (View.ld x3 r2_b) (View.ld x4 r2_w) (View.ld x5 r2_b)⟩]

/-- The one store covers the tile. -/
theorem cover2_6 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-! ## The body's triple -/

set_option maxHeartbeats 1000000 in
/-- The body on whole staging buffers, the inputs' at contents `x0 … x5` and the output's at anything, runs to the
    continuation with the inputs as they were and the output at `out2_6` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input's buffer at its block and the output's
    at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole run of the program: four stretches of host operations around the three pallas_calls.

  The buffers' contents at each boundary are a fold from the launch memory (`W0 … W7`): a host stretch applies its
  operations; a region leaves its input arrays as it found them and its output array at what the 25 write-backs leave.
  No host operation and no region writes an argument, so each argument's buffer at the end walks back to the launch
  memory.  Each region is a segment over the thread state "every unscoped buffer at the boundary's contents, the
  generator register at some state, nothing owed"; the segments chain, and at the end every unscoped buffer is read
  against the final state (`run_all`).  The frame claim is that reading at the arguments (`frame`).
-/
import proofs.«110547_j30013231464612_1_alg».proof.Proof.KI.Region0
import proofs.«110547_j30013231464612_1_alg».proof.Proof.KI.Region1
import proofs.«110547_j30013231464612_1_alg».proof.Proof.KI.Region2
import proofs.«110547_j30013231464612_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)

/-- After `hostOps0`: region 0's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1`: region 1's entry. -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After `hostOps2`: region 2's entry. -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves (the inputs as entered, the output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After `hostOps3`: the end. -/
abbrev W7 : Dev nD → Valuation τ sig (Elt F) := fun c => StableHlo.after hostOps3 (W6 m c)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_in m c 0 rfl
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W7`, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the class invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the class invariant and
    comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the class invariant and
    comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- Every weakly fair execution of @main from memory `m` with zero counters terminates, nothing faulting, and at the end
    every unscoped buffer of every core holds the last boundary's contents `W7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame claim at any `F`: the run terminates, faults nowhere, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c)⟩) (run_all m ρ)

end Cert.KernelIdeal.Fr

end
-- ==== Proof.Spec.lean ====
/-
  The mathematics both programs compute, stated once over the extended reals.

  A GIN encoder layer maps node features `h : 50000 × 128` to
      relu( relu( (h + agg) · W1 + b1 ) · W2 + b2 ),
  where `agg` is the neighbours' sum: row `d` of `agg` adds the rows `h[s]` over the edges `s → d`.
  Row `p` of the layer's result depends on row `p` of `h + agg` only (`mlpRow`): entry `q` is
      max ( Σ_k  max( Σ_j z_j · W1[j,k] + b1[k], 0 ) · W2[k,q]  +  b2[q], 0 ).
  The neighbours' sum and the per-graph pooling are a gather followed by a scatter-add over index arrays; both
  programs apply the same two host operations to the same operands, so they stay unopened here (`agg`, `pool`).
  Three layers are chained; the results are the three layers' outputs side by side (`out1`) and their per-graph
  sums side by side (`out0`).
-/
import proofs.«110547_j30013231464612_1_alg».proof.Proof.Gen.KernelIdeal
import Idealize.ShloMosaic.PureOps.Ideal
import Idealize.ShloMosaic.Lib.ValueIdx

noncomputable section

open scoped BigOperators

namespace Cert.Gin

open Idealize.ShloMosaic Idealize.ShloMosaic.ValueIdx Cert.KernelIdeal Cert.KernelIdeal.Gen

/-- One row of the two-layer perceptron: from the row `z` of `h + agg`, entry `q` of the result. -/
def mlpRow (z : Fin 128 → EReal) (w1 : S128x128.Idx → EReal) (b1 : Fin 128 → EReal)
    (w2 : S128x128.Idx → EReal) (b2 : Fin 128 → EReal) (q : Fin 128) : EReal :=
  max ((∑ k : Fin 128, max ((∑ j : Fin 128, z j * w1 (ix2 j k)) + b1 k) 0 * w2 (ix2 k q)) + b2 q) 0

/-- The perceptron on whole arrays: row `p` of the result is `mlpRow` of row `p` of `h + agg`. -/
def mlp (h agg : FVec Ideal S50000x128 .f32) (w1 : FVec Ideal S128x128 .f32) (b1 : FVec Ideal S128 .f32)
    (w2 : FVec Ideal S128x128 .f32) (b2 : FVec Ideal S128 .f32) : FVec Ideal S50000x128 .f32 := fun i =>
  mlpRow (fun j => h (ix2 (i 0) j) + agg (ix2 (i 0) j)) w1 (fun k => b1 (ix1 k)) w2 (fun k => b2 (ix1 k)) (i 1)

/-- The edges' source nodes, a negative index wrapped once (as jnp indexing does). -/
def srcIdx (ei : IVec S2x800000 32) : IVec S800000x1 32 :=
  broadcastInDim S800000x1 ![0] bcast_S800000_S800000x1_0
    (select
      (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- The edges' destination nodes. -/
def dstIdx (ei : IVec S2x800000 32) : IVec S800000x1 32 :=
  broadcastInDim S800000x1 ![0] bcast_S800000_S800000x1_0
    (shapeCast _ (extractStridedSlice S1x800000 ![1, 0] ei slices_S2x800000_S1x800000_1_0) shapeCasts_S1x800000_S800000)

/-- The neighbours' sum of `h`: gather the source rows, scatter-add them at the destinations. Never opened. -/
def agg (ei : IVec S2x800000 32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (dstIdx ei)
    (Host.gather gather_S50000x128_S800000x1_S800000x128_1_0_n_n_0_1_1128 h (srcIdx ei))

/-- The per-graph sum of node rows: scatter-add at the graph ids. Never opened. -/
def pool (batch : IVec S50000 32) (h : FVec Ideal S50000x128 .f32) : FVec Ideal S256x128 .f32 :=
  Host.scatterAdd scatter_S256x128_S50000x1_S50000x128_1_0_0_1
    (broadcastInDim S256x128 ![] bcast_S_S256x128 (constant S_ .f32 0x00000000#32))
    (broadcastInDim S50000x1 ![0] bcast_S50000_S50000x1_0 batch)
    h

/-- Layer `k`'s weight matrix out of the stacked weights (the slice starts at `![k, 0, 0]`). -/
def wMat (off : Fin 3 → Nat) (hs : S3x128x128.Slices off S1x128x128) (W : FVec Ideal S3x128x128 .f32) : FVec Ideal S128x128 .f32 :=
  shapeCast _ (extractStridedSlice S1x128x128 off W hs) shapeCasts_S1x128x128_S128x128

/-- Layer `k`'s bias vector out of the stacked biases (the slice starts at `![k, 0]`). -/
def bVec (off : Fin 2 → Nat) (hs : S3x128.Slices off S1x128) (b : FVec Ideal S3x128 .f32) : FVec Ideal S128 .f32 :=
  shapeCast _ (extractStridedSlice S1x128 off b hs) shapeCasts_S1x128_S128

/-- One layer: the perceptron of `h` and its neighbours' sum. -/
def layer (ei : IVec S2x800000 32) (h : FVec Ideal S50000x128 .f32) (w1 : FVec Ideal S128x128 .f32) (b1 : FVec Ideal S128 .f32)
    (w2 : FVec Ideal S128x128 .f32) (b2 : FVec Ideal S128 .f32) : FVec Ideal S50000x128 .f32 :=
  mlp h (agg ei h) w1 b1 w2 b2

section Layers
variable (x : FVec Ideal S50000x128 .f32) (ei : IVec S2x800000 32)
  (W1 : FVec Ideal S3x128x128 .f32) (b1 : FVec Ideal S3x128 .f32) (W2 : FVec Ideal S3x128x128 .f32) (b2 : FVec Ideal S3x128 .f32)

/-- The node features after the first, second and third layer. -/
def h1 : FVec Ideal S50000x128 .f32 :=
  layer ei x (wMat ![0, 0, 0] slices_S3x128x128_S1x128x128_0_0_0 W1) (bVec ![0, 0] slices_S3x128_S1x128_0_0 b1)
    (wMat ![0, 0, 0] slices_S3x128x128_S1x128x128_0_0_0 W2) (bVec ![0, 0] slices_S3x128_S1x128_0_0 b2)
def h2 : FVec Ideal S50000x128 .f32 :=
  layer ei (h1 x ei W1 b1 W2 b2) (wMat ![1, 0, 0] slices_S3x128x128_S1x128x128_1_0_0 W1) (bVec ![1, 0] slices_S3x128_S1x128_1_0 b1)
    (wMat ![1, 0, 0] slices_S3x128x128_S1x128x128_1_0_0 W2) (bVec ![1, 0] slices_S3x128_S1x128_1_0 b2)
def h3 : FVec Ideal S50000x128 .f32 :=
  layer ei (h2 x ei W1 b1 W2 b2) (wMat ![2, 0, 0] slices_S3x128x128_S1x128x128_2_0_0 W1) (bVec ![2, 0] slices_S3x128_S1x128_2_0 b1)
    (wMat ![2, 0, 0] slices_S3x128x128_S1x128x128_2_0_0 W2) (bVec ![2, 0] slices_S3x128_S1x128_2_0 b2)

/-- The second result: the three layers' node features side by side. -/
def out1 : FVec Ideal S50000x384 .f32 :=
  concatenate S50000x384 1 [⟨S50000x128, h1 x ei W1 b1 W2 b2⟩, ⟨S50000x128, h2 x ei W1 b1 W2 b2⟩, ⟨S50000x128, h3 x ei W1 b1 W2 b2⟩]
    concatenates_S50000x128_S50000x128_S50000x128_S50000x384_d1

/-- The first result: the three layers' per-graph sums side by side. -/
def out0 (batch : IVec S50000 32) : FVec Ideal S256x384 .f32 :=
  concatenate S256x384 1 [⟨S256x128, pool batch (h1 x ei W1 b1 W2 b2)⟩, ⟨S256x128, pool batch (h2 x ei W1 b1 W2 b2)⟩,
      ⟨S256x128, pool batch (h3 x ei W1 b1 W2 b2)⟩]
    concatenates_S256x128_S256x128_S256x128_S256x384_d1

end Layers

end Cert.Gin

end
-- ==== Proof.Payload.lean ====
/-
  The value each kernel body stores, read at one index: entry (p, q) of the stored tile is the two-layer
  perceptron row (mlpRow) of row p of the sum of the two operand tiles.
-/
import proofs.«110547_j30013231464612_1_alg».proof.Proof.Gen.KernelIdeal.Skeleton
import proofs.«110547_j30013231464612_1_alg».proof.Proof.Spec
import Idealize.ShloMosaic.PureOps.Ideal
import Idealize.ShloMosaic.Lib.ValueIdx
import Idealize.ShloMosaic.PureOps.Ideal.Laws
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The left operand's index of the matrix product keeps the output row … -/
theorem mm_lhs_0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and takes the contracted coordinate as its column. -/
theorem mm_lhs_1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
/-- The right operand's index takes the contracted coordinate as its row … -/
theorem mm_rhs_0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
/-- … and keeps the output column. -/
theorem mm_rhs_1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix product into a zero accumulator, read at (p, q): the sum over the contracted coordinate. -/
theorem mm_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  show FloatOps.matmul dot_S2000x128_S128x128_S2000x128_1_0_0_1_n_n none a b (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun c => Fin.ext (by
      match c with
      | ⟨0, _⟩ => exact mm_lhs_0 _ _
      | ⟨1, _⟩ => exact (mm_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun c => Fin.ext (by
      match c with
      | ⟨0, _⟩ => exact (mm_rhs_0 _ _).trans hk
      | ⟨1, _⟩ => exact mm_rhs_1 _ _)
  rw [el, er]

/-- The bias row laid along every row of the tile, read at (p, q): the row's entry q. -/
theorem bias_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun c => by
    match c with
    | ⟨0, _⟩ => rfl
    | ⟨1, _⟩ => rfl)

/-- The splat zero the maximum is taken against is the extended real 0. -/
theorem zero_apply (i : S2000x128.Idx) :
    broadcast S2000x128 (Scalar.ofBits (F := Ideal) .f32 0x00000000#32) i = (0 : EReal) :=
  Ideal.ofBits_zero_f32

/-- One dense layer of the tile, read at (p, q): the row of z against column q of w, plus the bias, clamped at 0.
    (The format changes to bf16 in front of the product are the identity on extended reals.) -/
theorem dense_apply (z : FVec Ideal S2000x128 .f32) (w : FVec Ideal S128x128 .f32) (b : FVec Ideal S1x128 .f32)
    (p : Fin 2000) (q : Fin 128) :
    maximumf
        (addf
          (matmul dot_S2000x128_S128x128_S2000x128_1_0_0_1_n_n none (truncf .bf16 z bitsLt_bf16_f32) (truncf .bf16 w bitsLt_bf16_f32)
            (constant (F := Ideal) S2000x128 .f32 0x00000000#32))
          (broadcastTo S2000x128 b broadcasts_S1x128_S2000x128))
        (broadcast S2000x128 (Scalar.ofBits (F := Ideal) .f32 0x00000000#32)) (ix2 p q)
      = max ((∑ k : Fin 128, z (ix2 p k) * w (ix2 k q)) + b (ix2 (0 : Fin 1) q)) 0 := by
  rw [maximumf_apply, addf_apply, mm_apply, bias_apply, zero_apply]
  rfl

/-- Two dense layers chained: the perceptron row. -/
theorem mlp_apply (z : FVec Ideal S2000x128 .f32) (w1 : FVec Ideal S128x128 .f32) (b1 : FVec Ideal S1x128 .f32)
    (w2 : FVec Ideal S128x128 .f32) (b2 : FVec Ideal S1x128 .f32) (p : Fin 2000) (q : Fin 128) :
    maximumf
        (addf
          (matmul dot_S2000x128_S128x128_S2000x128_1_0_0_1_n_n none
            (truncf .bf16
              (maximumf
                (addf
                  (matmul dot_S2000x128_S128x128_S2000x128_1_0_0_1_n_n none (truncf .bf16 z bitsLt_bf16_f32) (truncf .bf16 w1 bitsLt_bf16_f32)
                    (constant (F := Ideal) S2000x128 .f32 0x00000000#32))
                  (broadcastTo S2000x128 b1 broadcasts_S1x128_S2000x128))
                (broadcast S2000x128 (Scalar.ofBits (F := Ideal) .f32 0x00000000#32)))
              bitsLt_bf16_f32)
            (truncf .bf16 w2 bitsLt_bf16_f32)
            (constant (F := Ideal) S2000x128 .f32 0x00000000#32))
          (broadcastTo S2000x128 b2 broadcasts_S1x128_S2000x128))
        (broadcast S2000x128 (Scalar.ofBits (F := Ideal) .f32 0x00000000#32)) (ix2 p q)
      = Cert.Gin.mlpRow (fun j => z (ix2 p j)) w1 (fun k => b1 (ix2 (0 : Fin 1) k)) w2 (fun k => b2 (ix2 (0 : Fin 1) k)) q := by
  refine (dense_apply _ w2 b2 p q).trans ?_
  unfold Cert.Gin.mlpRow
  refine congrArg (fun t => max (t + b2 (ix2 (0 : Fin 1) q)) 0) (Finset.sum_congr rfl fun k _ => ?_)
  exact congrArg (· * w2 (ix2 k q)) (dense_apply z w1 b1 p k)

theorem k0_pay1_apply (x0 x1 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    Cert.KernelIdeal.Gen.k0_pay1 (F := Ideal) x0 x1 w1 b1 w2 b2 (ix2 p q)
      = Cert.Gin.mlpRow (fun j => x0 (ix2 p j) + x1 (ix2 p j)) w1 (fun k => b1 (ix2 0 k)) w2 (fun k => b2 (ix2 0 k)) q := by
  unfold Cert.KernelIdeal.Gen.k0_pay1
  simp only [shapeCast_self]
  exact mlp_apply (addf x0 x1) w1 b1 w2 b2 p q

theorem k1_pay1_apply (x0 x1 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    Cert.KernelIdeal.Gen.k1_pay1 (F := Ideal) x0 x1 w1 b1 w2 b2 (ix2 p q)
      = Cert.Gin.mlpRow (fun j => x0 (ix2 p j) + x1 (ix2 p j)) w1 (fun k => b1 (ix2 0 k)) w2 (fun k => b2 (ix2 0 k)) q := by
  unfold Cert.KernelIdeal.Gen.k1_pay1
  simp only [shapeCast_self]
  exact mlp_apply (addf x0 x1) w1 b1 w2 b2 p q

theorem k2_pay1_apply (x0 x1 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    Cert.KernelIdeal.Gen.k2_pay1 (F := Ideal) x0 x1 w1 b1 w2 b2 (ix2 p q)
      = Cert.Gin.mlpRow (fun j => x0 (ix2 p j) + x1 (ix2 p j)) w1 (fun k => b1 (ix2 0 k)) w2 (fun k => b2 (ix2 0 k)) q := by
  unfold Cert.KernelIdeal.Gen.k2_pay1
  simp only [shapeCast_self]
  exact mlp_apply (addf x0 x1) w1 b1 w2 b2 p q

end Cert.KernelIdeal.Pay

end
-- ==== Proof.KI.Value0.lean ====
/-
  Region 0 of the program, from blocks to the array.  The output tile a grid point writes back is the perceptron of
  the tiles of the node features and of the neighbours' sum at that point; the weights' and biases' blocks are the whole
  arrays at every point.  Tile t holds rows 2000·t … 2000·t + 1999, and row r of the array is in tile r / 2000: the 25
  tiles cover the 50000 rows, so after the last point the output array is the perceptron of the whole arrays.
-/
import proofs.«110547_j30013231464612_1_alg».proof.Proof.KI.Region0
import proofs.«110547_j30013231464612_1_alg».proof.Proof.Spec
import proofs.«110547_j30013231464612_1_alg».proof.Proof.Payload
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile a point leaves, entry by entry -/

/-- The two zero offsets of a whole-buffer access, as the constant function. -/
theorem zero_off0 : (![0, 0] : Fin 2 → Nat) = fun _ => 0 := funext fun a => by fin_cases a <;> rfl

/-- Entry (p, q) of the tile the body leaves: the perceptron row of row p of the sum of the two operand tiles. -/
theorem out0_6_apply (x0 x1 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    out0_6 (F := Ideal) x0 x1 w1 b1 w2 b2 (ix2 p q)
      = Cert.Gin.mlpRow (fun j => x0 (ix2 p j) + x1 (ix2 p j)) w1 (fun k => b1 (ix2 0 k)) w2 (fun k => b2 (ix2 0 k)) q := by
  unfold out0_6
  rw [View.canon_unit_zero zero_off0]
  simp only [View.ld_unit_zero (S := S2000x128) zero_off0, View.ld_unit_zero (S := S128x128) zero_off0,
    View.ld_unit_zero (S := S1x128) zero_off0]
  exact Cert.KernelIdeal.Pay.k0_pay1_apply x0 x1 w1 b1 w2 b2 p q

/-- A tile whose two operand tiles are rows 2000·n … 2000·n + 1999 of two arrays holds, at its entry y, the perceptron
    of the two arrays at the array's entry i with i₀ = 2000·n + y₀ and i₁ = y₁. -/
theorem tile0 (h agg : FVec Ideal S50000x128 .f32) (W1 W2 : FVec Ideal S128x128 .f32) (B1 B2 : FVec Ideal S1x128 .f32)
    (x0 x1 : Vec Ideal S2000x128 .f32) (n : Nat)
    (hx0 : ∀ (p : Fin 2000) (j : Fin 128) (r : Fin 50000), r.val = n * 2000 + p.val → x0 (ix2 p j) = h (ix2 r j))
    (hx1 : ∀ (p : Fin 2000) (j : Fin 128) (r : Fin 50000), r.val = n * 2000 + p.val → x1 (ix2 p j) = agg (ix2 r j))
    (y : S2000x128.Idx) (i : S50000x128.Idx) (hi0 : (i 0).val = n * 2000 + (y 0).val) (hi1 : (i 1).val = (y 1).val) :
    out0_6 (F := Ideal) x0 x1 W1 B1 W2 B2 y
      = Cert.Gin.mlp h agg W1 (fun k => B1 (ix2 0 (k 0))) W2 (fun k => B2 (ix2 0 (k 0))) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  rw [out0_6_apply]
  have e : (fun j : Fin 128 => x0 (ix2 p j) + x1 (ix2 p j)) = fun j => h (ix2 r j) + agg (ix2 r j) :=
    funext fun j => by rw [hx0 p j r hi0, hx1 p j r hi0]
  rw [e]
  rfl

/-! ## The windows' block indices, decided over the 25 points -/

/-- Windows 0, 1 and 6 are at block (t, 0) at point t; the weights' and biases' windows stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, read off its array -/

/-- The node features' block at point t is rows 2000·t … 2000·t + 1999 of the array. -/
theorem iblk0_0_apply (c : Dev nD) (t : Fin cfg0.N) (p : Fin 2000) (j : Fin 128) (r : Fin 50000)
    (hr : r.val = t.val * 2000 + p.val) :
    (iblk0 V c 0 t : Vec Ideal S2000x128 .f32) (ix2 p j) = (V c main_arg0 : S50000x128.Idx → EReal) (ix2 r j) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * j.val = j.val; rw [e1]; omega

/-- The neighbours' sum's block at point t is the same rows of its array. -/
theorem iblk0_1_apply (c : Dev nD) (t : Fin cfg0.N) (p : Fin 2000) (j : Fin 128) (r : Fin 50000)
    (hr : r.val = t.val * 2000 + p.val) :
    (iblk0 V c 1 t : Vec Ideal S2000x128 .f32) (ix2 p j) = (V c main_v13 : S50000x128.Idx → EReal) (ix2 r j) := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * j.val = j.val; rw [e1]; omega

/-- The first weight matrix's block is the whole matrix at every point. -/
theorem iblk0_2_eq (c : Dev nD) (t : Fin cfg0.N) :
    (iblk0 V c 2 t : Vec Ideal S128x128 .f32) = (V c main_v15 : S128x128.Idx → EReal) := by
  obtain ⟨-, -, -, -, e0, e1, -⟩ := idx_facts0 t
  funext y
  unfold iblk0
  rw [View.read_apply]
  show V c main_v15 _ = V c main_v15 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias row's block is the whole row at every point. -/
theorem iblk0_3_eq (c : Dev nD) (t : Fin cfg0.N) :
    (iblk0 V c 3 t : Vec Ideal S1x128 .f32) = (V c main_v22 : S1x128.Idx → EReal) := by
  obtain ⟨-, -, -, -, -, -, e0, e1, -⟩ := idx_facts0 t
  funext y
  unfold iblk0
  rw [View.read_apply]
  show V c main_v22 _ = V c main_v22 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weight matrix's block is the whole matrix at every point. -/
theorem iblk0_4_eq (c : Dev nD) (t : Fin cfg0.N) :
    (iblk0 V c 4 t : Vec Ideal S128x128 .f32) = (V c main_v19 : S128x128.Idx → EReal) := by
  obtain ⟨-, -, -, -, -, -, -, -, e0, e1, -⟩ := idx_facts0 t
  funext y
  unfold iblk0
  rw [View.read_apply]
  show V c main_v19 _ = V c main_v19 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's block is the whole row at every point. -/
theorem iblk0_5_eq (c : Dev nD) (t : Fin cfg0.N) :
    (iblk0 V c 5 t : Vec Ideal S1x128 .f32) = (V c main_v23 : S1x128.Idx → EReal) := by
  obtain ⟨-, -, -, -, -, -, -, -, -, -, e0, e1, -⟩ := idx_facts0 t
  funext y
  unfold iblk0
  rw [View.read_apply]
  show V c main_v23 _ = V c main_v23 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## What a point writes back -/

/-- Point t writes back tile t of the perceptron of the arrays as the region finds them. -/
theorem flushed0_eq (c : Dev nD) (t : Fin cfg0.N) :
    (dat0 (F := Ideal) V c).flushed 6 t
      = ((cfg0.win 6).blk t).view.read (Elt Ideal) (Cert.Gin.mlp (V c main_arg0) (V c main_v13) (V c main_v15) (fun i => V c main_v22 (ix2 0 (i 0))) (V c main_v19) (fun i => V c main_v23 (ix2 0 (i 0)))) := by
  show (cfg0.win 6).cut (grid0.coords t) ((dat0 V c).after 6 t) = _
  rw [after0_6, iblk0_2_eq V c t, iblk0_3_eq V c t, iblk0_4_eq V c t, iblk0_5_eq V c t]
  obtain ⟨-, -, -, -, -, -, -, -, -, -, -, -, e0, e1⟩ := idx_facts0 t
  funext y
  rw [View.read_apply]
  refine tile0 (V c main_arg0) (V c main_v13) (V c main_v15) (V c main_v19) (V c main_v22) (V c main_v23)
    (iblk0 V c 0 t) (iblk0 V c 1 t) t.val (fun p j r hr => iblk0_0_apply V c t p j r hr)
    (fun p j r hr => iblk0_1_apply V c t p j r hr) y (((cfg0.win 6).blk t).view.emb y) ?_ ?_
  · show win0_6.index t (0 : Fin 2) * 2000 + 1 * (y 0).val = t.val * 2000 + (y 0).val; rw [e0]; omega
  · show win0_6.index t (1 : Fin 2) * 128 + 1 * (y 1).val = (y 1).val; rw [e1]; omega

/-! ## The tiles cover the array -/

/-- An entry of the array is in point t's tile iff each coordinate is in the tile's range on its axis. -/
theorem mem_blk0 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v24).slice (win0_6.rect t)).set ↔ _
  rw [View.set_slice_whole, Rect.mem_set_unit]
  exact Iff.rfl

/-- Row r of the array is in the tile of point r / 2000, and every point writes its tile back. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1⟩ := idx_facts0 t
  refine ⟨t, flush0_6 t, ?_⟩
  rw [mem_blk0]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-! ## The array after the region -/

/-- After the last point the output array is the perceptron of the node features, the neighbours' sum, the weights and
    the biases as the region finds them. -/
theorem final0 (c : Dev nD) :
    (dat0 (F := Ideal) V c).arrAt 6 cfg0.N
      = Cert.Gin.mlp (V c main_arg0) (V c main_v13) (V c main_v15) (fun i => V c main_v22 (ix2 0 (i 0))) (V c main_v19) (fun i => V c main_v23 (ix2 0 (i 0))) :=
  (dat0 (F := Ideal) V c).arrAt_eq_of_cover 6 (Cert.Gin.mlp (V c main_arg0) (V c main_v13) (V c main_v15) (fun i => V c main_v22 (ix2 0 (i 0))) (V c main_v19) (fun i => V c main_v23 (ix2 0 (i 0))))
    (fun t _ => flushed0_eq V c t) (cover0)

end Cert.KernelIdeal.Fr

end
-- ==== Proof.KI.Value1.lean ====
/-
  Region 1 of the program, from blocks to the array.  The output tile a grid point writes back is the perceptron of
  the tiles of the node features and of the neighbours' sum at that point; the weights' and biases' blocks are the whole
  arrays at every point.  Tile t holds rows 2000·t … 2000·t + 1999, and row r of the array is in tile r / 2000: the 25
  tiles cover the 50000 rows, so after the last point the output array is the perceptron of the whole arrays.
-/
import proofs.«110547_j30013231464612_1_alg».proof.Proof.KI.Region1
import proofs.«110547_j30013231464612_1_alg».proof.Proof.Spec
import proofs.«110547_j30013231464612_1_alg».proof.Proof.Payload
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile a point leaves, entry by entry -/

/-- The two zero offsets of a whole-buffer access, as the constant function. -/
theorem zero_off1 : (![0, 0] : Fin 2 → Nat) = fun _ => 0 := funext fun a => by fin_cases a <;> rfl

/-- Entry (p, q) of the tile the body leaves: the perceptron row of row p of the sum of the two operand tiles. -/
theorem out1_6_apply (x0 x1 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    out1_6 (F := Ideal) x0 x1 w1 b1 w2 b2 (ix2 p q)
      = Cert.Gin.mlpRow (fun j => x0 (ix2 p j) + x1 (ix2 p j)) w1 (fun k => b1 (ix2 0 k)) w2 (fun k => b2 (ix2 0 k)) q := by
  unfold out1_6
  rw [View.canon_unit_zero zero_off1]
  simp only [View.ld_unit_zero (S := S2000x128) zero_off1, View.ld_unit_zero (S := S128x128) zero_off1,
    View.ld_unit_zero (S := S1x128) zero_off1]
  exact Cert.KernelIdeal.Pay.k1_pay1_apply x0 x1 w1 b1 w2 b2 p q

/-- A tile whose two operand tiles are rows 2000·n … 2000·n + 1999 of two arrays holds, at its entry y, the perceptron
    of the two arrays at the array's entry i with i₀ = 2000·n + y₀ and i₁ = y₁. -/
theorem tile1 (h agg : FVec Ideal S50000x128 .f32) (W1 W2 : FVec Ideal S128x128 .f32) (B1 B2 : FVec Ideal S1x128 .f32)
    (x0 x1 : Vec Ideal S2000x128 .f32) (n : Nat)
    (hx0 : ∀ (p : Fin 2000) (j : Fin 128) (r : Fin 50000), r.val = n * 2000 + p.val → x0 (ix2 p j) = h (ix2 r j))
    (hx1 : ∀ (p : Fin 2000) (j : Fin 128) (r : Fin 50000), r.val = n * 2000 + p.val → x1 (ix2 p j) = agg (ix2 r j))
    (y : S2000x128.Idx) (i : S50000x128.Idx) (hi0 : (i 0).val = n * 2000 + (y 0).val) (hi1 : (i 1).val = (y 1).val) :
    out1_6 (F := Ideal) x0 x1 W1 B1 W2 B2 y
      = Cert.Gin.mlp h agg W1 (fun k => B1 (ix2 0 (k 0))) W2 (fun k => B2 (ix2 0 (k 0))) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  rw [out1_6_apply]
  have e : (fun j : Fin 128 => x0 (ix2 p j) + x1 (ix2 p j)) = fun j => h (ix2 r j) + agg (ix2 r j) :=
    funext fun j => by rw [hx0 p j r hi0, hx1 p j r hi0]
  rw [e]
  rfl

/-! ## The windows' block indices, decided over the 25 points -/

/-- Windows 0, 1 and 6 are at block (t, 0) at point t; the weights' and biases' windows stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block, read off its array -/

/-- The node features' block at point t is rows 2000·t … 2000·t + 1999 of the array. -/
theorem iblk1_0_apply (c : Dev nD) (t : Fin cfg1.N) (p : Fin 2000) (j : Fin 128) (r : Fin 50000)
    (hr : r.val = t.val * 2000 + p.val) :
    (iblk1 V c 0 t : Vec Ideal S2000x128 .f32) (ix2 p j) = (V c main_v24 : S50000x128.Idx → EReal) (ix2 r j) := by
  obtain ⟨e0, e1, -⟩ := idx_facts1 t
  unfold iblk1
  rw [View.read_apply]
  show V c main_v24 _ = V c main_v24 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * j.val = j.val; rw [e1]; omega

/-- The neighbours' sum's block at point t is the same rows of its array. -/
theorem iblk1_1_apply (c : Dev nD) (t : Fin cfg1.N) (p : Fin 2000) (j : Fin 128) (r : Fin 50000)
    (hr : r.val = t.val * 2000 + p.val) :
    (iblk1 V c 1 t : Vec Ideal S2000x128 .f32) (ix2 p j) = (V c main_v34 : S50000x128.Idx → EReal) (ix2 r j) := by
  obtain ⟨-, -, e0, e1, -⟩ := idx_facts1 t
  unfold iblk1
  rw [View.read_apply]
  show V c main_v34 _ = V c main_v34 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * j.val = j.val; rw [e1]; omega

/-- The first weight matrix's block is the whole matrix at every point. -/
theorem iblk1_2_eq (c : Dev nD) (t : Fin cfg1.N) :
    (iblk1 V c 2 t : Vec Ideal S128x128 .f32) = (V c main_v36 : S128x128.Idx → EReal) := by
  obtain ⟨-, -, -, -, e0, e1, -⟩ := idx_facts1 t
  funext y
  unfold iblk1
  rw [View.read_apply]
  show V c main_v36 _ = V c main_v36 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's block is the whole row at every point. -/
theorem iblk1_3_eq (c : Dev nD) (t : Fin cfg1.N) :
    (iblk1 V c 3 t : Vec Ideal S1x128 .f32) = (V c main_v43 : S1x128.Idx → EReal) := by
  obtain ⟨-, -, -, -, -, -, e0, e1, -⟩ := idx_facts1 t
  funext y
  unfold iblk1
  rw [View.read_apply]
  show V c main_v43 _ = V c main_v43 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight matrix's block is the whole matrix at every point. -/
theorem iblk1_4_eq (c : Dev nD) (t : Fin cfg1.N) :
    (iblk1 V c 4 t : Vec Ideal S128x128 .f32) = (V c main_v40 : S128x128.Idx → EReal) := by
  obtain ⟨-, -, -, -, -, -, -, -, e0, e1, -⟩ := idx_facts1 t
  funext y
  unfold iblk1
  rw [View.read_apply]
  show V c main_v40 _ = V c main_v40 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's block is the whole row at every point. -/
theorem iblk1_5_eq (c : Dev nD) (t : Fin cfg1.N) :
    (iblk1 V c 5 t : Vec Ideal S1x128 .f32) = (V c main_v44 : S1x128.Idx → EReal) := by
  obtain ⟨-, -, -, -, -, -, -, -, -, -, e0, e1, -⟩ := idx_facts1 t
  funext y
  unfold iblk1
  rw [View.read_apply]
  show V c main_v44 _ = V c main_v44 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-! ## What a point writes back -/

/-- Point t writes back tile t of the perceptron of the arrays as the region finds them. -/
theorem flushed1_eq (c : Dev nD) (t : Fin cfg1.N) :
    (dat1 (F := Ideal) V c).flushed 6 t
      = ((cfg1.win 6).blk t).view.read (Elt Ideal) (Cert.Gin.mlp (V c main_v24) (V c main_v34) (V c main_v36) (fun i => V c main_v43 (ix2 0 (i 0))) (V c main_v40) (fun i => V c main_v44 (ix2 0 (i 0)))) := by
  show (cfg1.win 6).cut (grid1.coords t) ((dat1 V c).after 6 t) = _
  rw [after1_6, iblk1_2_eq V c t, iblk1_3_eq V c t, iblk1_4_eq V c t, iblk1_5_eq V c t]
  obtain ⟨-, -, -, -, -, -, -, -, -, -, -, -, e0, e1⟩ := idx_facts1 t
  funext y
  rw [View.read_apply]
  refine tile1 (V c main_v24) (V c main_v34) (V c main_v36) (V c main_v40) (V c main_v43) (V c main_v44)
    (iblk1 V c 0 t) (iblk1 V c 1 t) t.val (fun p j r hr => iblk1_0_apply V c t p j r hr)
    (fun p j r hr => iblk1_1_apply V c t p j r hr) y (((cfg1.win 6).blk t).view.emb y) ?_ ?_
  · show win1_6.index t (0 : Fin 2) * 2000 + 1 * (y 0).val = t.val * 2000 + (y 0).val; rw [e0]; omega
  · show win1_6.index t (1 : Fin 2) * 128 + 1 * (y 1).val = (y 1).val; rw [e1]; omega

/-! ## The tiles cover the array -/

/-- An entry of the array is in point t's tile iff each coordinate is in the tile's range on its axis. -/
theorem mem_blk1 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v45).slice (win1_6.rect t)).set ↔ _
  rw [View.set_slice_whole, Rect.mem_set_unit]
  exact Iff.rfl

/-- Row r of the array is in the tile of point r / 2000, and every point writes its tile back. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

/-! ## The array after the region -/

/-- After the last point the output array is the perceptron of the node features, the neighbours' sum, the weights and
    the biases as the region finds them. -/
theorem final1 (c : Dev nD) :
    (dat1 (F := Ideal) V c).arrAt 6 cfg1.N
      = Cert.Gin.mlp (V c main_v24) (V c main_v34) (V c main_v36) (fun i => V c main_v43 (ix2 0 (i 0))) (V c main_v40) (fun i => V c main_v44 (ix2 0 (i 0))) :=
  (dat1 (F := Ideal) V c).arrAt_eq_of_cover 6 (Cert.Gin.mlp (V c main_v24) (V c main_v34) (V c main_v36) (fun i => V c main_v43 (ix2 0 (i 0))) (V c main_v40) (fun i => V c main_v44 (ix2 0 (i 0))))
    (fun t _ => flushed1_eq V c t) (cover1)

end Cert.KernelIdeal.Fr

end
-- ==== Proof.KI.Value2.lean ====
/-
  Region 2 of the program, from blocks to the array.  The output tile a grid point writes back is the perceptron of
  the tiles of the node features and of the neighbours' sum at that point; the weights' and biases' blocks are the whole
  arrays at every point.  Tile t holds rows 2000·t … 2000·t + 1999, and row r of the array is in tile r / 2000: the 25
  tiles cover the 50000 rows, so after the last point the output array is the perceptron of the whole arrays.
-/
import proofs.«110547_j30013231464612_1_alg».proof.Proof.KI.Region2
import proofs.«110547_j30013231464612_1_alg».proof.Proof.Spec
import proofs.«110547_j30013231464612_1_alg».proof.Proof.Payload
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile a point leaves, entry by entry -/

/-- The two zero offsets of a whole-buffer access, as the constant function. -/
theorem zero_off2 : (![0, 0] : Fin 2 → Nat) = fun _ => 0 := funext fun a => by fin_cases a <;> rfl

/-- Entry (p, q) of the tile the body leaves: the perceptron row of row p of the sum of the two operand tiles. -/
theorem out2_6_apply (x0 x1 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    out2_6 (F := Ideal) x0 x1 w1 b1 w2 b2 (ix2 p q)
      = Cert.Gin.mlpRow (fun j => x0 (ix2 p j) + x1 (ix2 p j)) w1 (fun k => b1 (ix2 0 k)) w2 (fun k => b2 (ix2 0 k)) q := by
  unfold out2_6
  rw [View.canon_unit_zero zero_off2]
  simp only [View.ld_unit_zero (S := S2000x128) zero_off2, View.ld_unit_zero (S := S128x128) zero_off2,
    View.ld_unit_zero (S := S1x128) zero_off2]
  exact Cert.KernelIdeal.Pay.k2_pay1_apply x0 x1 w1 b1 w2 b2 p q

/-- A tile whose two operand tiles are rows 2000·n … 2000·n + 1999 of two arrays holds, at its entry y, the perceptron
    of the two arrays at the array's entry i with i₀ = 2000·n + y₀ and i₁ = y₁. -/
theorem tile2 (h agg : FVec Ideal S50000x128 .f32) (W1 W2 : FVec Ideal S128x128 .f32) (B1 B2 : FVec Ideal S1x128 .f32)
    (x0 x1 : Vec Ideal S2000x128 .f32) (n : Nat)
    (hx0 : ∀ (p : Fin 2000) (j : Fin 128) (r : Fin 50000), r.val = n * 2000 + p.val → x0 (ix2 p j) = h (ix2 r j))
    (hx1 : ∀ (p : Fin 2000) (j : Fin 128) (r : Fin 50000), r.val = n * 2000 + p.val → x1 (ix2 p j) = agg (ix2 r j))
    (y : S2000x128.Idx) (i : S50000x128.Idx) (hi0 : (i 0).val = n * 2000 + (y 0).val) (hi1 : (i 1).val = (y 1).val) :
    out2_6 (F := Ideal) x0 x1 W1 B1 W2 B2 y
      = Cert.Gin.mlp h agg W1 (fun k => B1 (ix2 0 (k 0))) W2 (fun k => B2 (ix2 0 (k 0))) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  rw [out2_6_apply]
  have e : (fun j : Fin 128 => x0 (ix2 p j) + x1 (ix2 p j)) = fun j => h (ix2 r j) + agg (ix2 r j) :=
    funext fun j => by rw [hx0 p j r hi0, hx1 p j r hi0]
  rw [e]
  rfl

/-! ## The windows' block indices, decided over the 25 points -/

/-- Windows 0, 1 and 6 are at block (t, 0) at point t; the weights' and biases' windows stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Each input block, read off its array -/

/-- The node features' block at point t is rows 2000·t … 2000·t + 1999 of the array. -/
theorem iblk2_0_apply (c : Dev nD) (t : Fin cfg2.N) (p : Fin 2000) (j : Fin 128) (r : Fin 50000)
    (hr : r.val = t.val * 2000 + p.val) :
    (iblk2 V c 0 t : Vec Ideal S2000x128 .f32) (ix2 p j) = (V c main_v45 : S50000x128.Idx → EReal) (ix2 r j) := by
  obtain ⟨e0, e1, -⟩ := idx_facts2 t
  unfold iblk2
  rw [View.read_apply]
  show V c main_v45 _ = V c main_v45 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * j.val = j.val; rw [e1]; omega

/-- The neighbours' sum's block at point t is the same rows of its array. -/
theorem iblk2_1_apply (c : Dev nD) (t : Fin cfg2.N) (p : Fin 2000) (j : Fin 128) (r : Fin 50000)
    (hr : r.val = t.val * 2000 + p.val) :
    (iblk2 V c 1 t : Vec Ideal S2000x128 .f32) (ix2 p j) = (V c main_v55 : S50000x128.Idx → EReal) (ix2 r j) := by
  obtain ⟨-, -, e0, e1, -⟩ := idx_facts2 t
  unfold iblk2
  rw [View.read_apply]
  show V c main_v55 _ = V c main_v55 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * j.val = j.val; rw [e1]; omega

/-- The first weight matrix's block is the whole matrix at every point. -/
theorem iblk2_2_eq (c : Dev nD) (t : Fin cfg2.N) :
    (iblk2 V c 2 t : Vec Ideal S128x128 .f32) = (V c main_v57 : S128x128.Idx → EReal) := by
  obtain ⟨-, -, -, -, e0, e1, -⟩ := idx_facts2 t
  funext y
  unfold iblk2
  rw [View.read_apply]
  show V c main_v57 _ = V c main_v57 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The first bias row's block is the whole row at every point. -/
theorem iblk2_3_eq (c : Dev nD) (t : Fin cfg2.N) :
    (iblk2 V c 3 t : Vec Ideal S1x128 .f32) = (V c main_v64 : S1x128.Idx → EReal) := by
  obtain ⟨-, -, -, -, -, -, e0, e1, -⟩ := idx_facts2 t
  funext y
  unfold iblk2
  rw [View.read_apply]
  show V c main_v64 _ = V c main_v64 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The second weight matrix's block is the whole matrix at every point. -/
theorem iblk2_4_eq (c : Dev nD) (t : Fin cfg2.N) :
    (iblk2 V c 4 t : Vec Ideal S128x128 .f32) = (V c main_v61 : S128x128.Idx → EReal) := by
  obtain ⟨-, -, -, -, -, -, -, -, e0, e1, -⟩ := idx_facts2 t
  funext y
  unfold iblk2
  rw [View.read_apply]
  show V c main_v61 _ = V c main_v61 y
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The second bias row's block is the whole row at every point. -/
theorem iblk2_5_eq (c : Dev nD) (t : Fin cfg2.N) :
    (iblk2 V c 5 t : Vec Ideal S1x128 .f32) = (V c main_v65 : S1x128.Idx → EReal) := by
  obtain ⟨-, -, -, -, -, -, -, -, -, -, e0, e1, -⟩ := idx_facts2 t
  funext y
  unfold iblk2
  rw [View.read_apply]
  show V c main_v65 _ = V c main_v65 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-! ## What a point writes back -/

/-- Point t writes back tile t of the perceptron of the arrays as the region finds them. -/
theorem flushed2_eq (c : Dev nD) (t : Fin cfg2.N) :
    (dat2 (F := Ideal) V c).flushed 6 t
      = ((cfg2.win 6).blk t).view.read (Elt Ideal) (Cert.Gin.mlp (V c main_v45) (V c main_v55) (V c main_v57) (fun i => V c main_v64 (ix2 0 (i 0))) (V c main_v61) (fun i => V c main_v65 (ix2 0 (i 0)))) := by
  show (cfg2.win 6).cut (grid2.coords t) ((dat2 V c).after 6 t) = _
  rw [after2_6, iblk2_2_eq V c t, iblk2_3_eq V c t, iblk2_4_eq V c t, iblk2_5_eq V c t]
  obtain ⟨-, -, -, -, -, -, -, -, -, -, -, -, e0, e1⟩ := idx_facts2 t
  funext y
  rw [View.read_apply]
  refine tile2 (V c main_v45) (V c main_v55) (V c main_v57) (V c main_v61) (V c main_v64) (V c main_v65)
    (iblk2 V c 0 t) (iblk2 V c 1 t) t.val (fun p j r hr => iblk2_0_apply V c t p j r hr)
    (fun p j r hr => iblk2_1_apply V c t p j r hr) y (((cfg2.win 6).blk t).view.emb y) ?_ ?_
  · show win2_6.index t (0 : Fin 2) * 2000 + 1 * (y 0).val = t.val * 2000 + (y 0).val; rw [e0]; omega
  · show win2_6.index t (1 : Fin 2) * 128 + 1 * (y 1).val = (y 1).val; rw [e1]; omega

/-! ## The tiles cover the array -/

/-- An entry of the array is in point t's tile iff each coordinate is in the tile's range on its axis. -/
theorem mem_blk2 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v66).slice (win2_6.rect t)).set ↔ _
  rw [View.set_slice_whole, Rect.mem_set_unit]
  exact Iff.rfl

/-- Row r of the array is in the tile of point r / 2000, and every point writes its tile back. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, e0, e1⟩ := idx_facts2 t
  refine ⟨t, flush2_6 t, ?_⟩
  rw [mem_blk2]
  intro a
  match a with
  | ⟨0, _⟩ =>
    show win2_6.index t (0 : Fin 2) * 2000 ≤ (i 0).val ∧ (i 0).val < win2_6.index t (0 : Fin 2) * 2000 + 2000
    rw [e0, ht]; omega
  | ⟨1, _⟩ =>
    show win2_6.index t (1 : Fin 2) * 128 ≤ (i 1).val ∧ (i 1).val < win2_6.index t (1 : Fin 2) * 128 + 128
    rw [e1]; omega

/-! ## The array after the region -/

/-- After the last point the output array is the perceptron of the node features, the neighbours' sum, the weights and
    the biases as the region finds them. -/
theorem final2 (c : Dev nD) :
    (dat2 (F := Ideal) V c).arrAt 6 cfg2.N
      = Cert.Gin.mlp (V c main_v45) (V c main_v55) (V c main_v57) (fun i => V c main_v64 (ix2 0 (i 0))) (V c main_v61) (fun i => V c main_v65 (ix2 0 (i 0))) :=
  (dat2 (F := Ideal) V c).arrAt_eq_of_cover 6 (Cert.Gin.mlp (V c main_v45) (V c main_v55) (V c main_v57) (fun i => V c main_v64 (ix2 0 (i 0))) (V c main_v61) (fun i => V c main_v65 (ix2 0 (i 0))))
    (fun t _ => flushed2_eq V c t) (cover2)

end Cert.KernelIdeal.Fr

end
-- ==== Proof.LibNary3.lean ====
/-
  A host operation with a literal family of three operand references (a three-operand concatenate) read at its own
  result buffer: its function applied to the three operands' contents, each read at its own reference.  The library
  states this for four operands; this is the same fact for three.  With it a fold of host operations keeps reducing
  through a three-way concatenate: the operands appear at literal references, where the other operations' result
  lemmas apply.  General: nothing here depends on a program.
-/
import Idealize.ShloMosaic.Lib.StableHlo.Run

noncomputable section

namespace Cert.Lib

open Idealize.ShloMosaic Idealize.ShloMosaic.TcCoe Idealize.ShloMosaic.StableHlo

variable {τ : Topo} {sig : RefSig} {Val : EltTy → Type} {x a b y : Ref sig .tc}

/-- `nary` over three literal references, at its result buffer: `f` of the operands' contents, each at its own
    reference (`Fin.cons` of the three readings in place of a reading under a binder). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for use by `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

end
-- ==== Proof.KI.ValueRun.lean ====
/-
  The idealized program's run, read at its two results.

  Walking the boundaries' contents from the launch memory: the first host stretch computes the neighbours' sum of the
  input features and slices layer 1's weights and biases out of the stacked arguments; region 0 then leaves, in its
  output array, the perceptron of those (the tiles' write-backs cover the array: `final0`), which is the specification's
  `h1`.  The second and third stretches and regions repeat this on `h1` and `h2` with the slices at offsets 1 and 2.
  The last stretch pools each layer's features per graph and puts the three layers' arrays side by side.  A buffer that
  a stretch does not write and that is no array of a region (or is an input array of it) is carried over unchanged.
  The neighbours' sum and the pooling are never opened: both are the specification's own terms.
-/
import proofs.«110547_j30013231464612_1_alg».proof.Proof.KI.Run
import proofs.«110547_j30013231464612_1_alg».proof.Proof.KI.Value0
import proofs.«110547_j30013231464612_1_alg».proof.Proof.KI.Value1
import proofs.«110547_j30013231464612_1_alg».proof.Proof.KI.Value2
import proofs.«110547_j30013231464612_1_alg».proof.Proof.Spec
import proofs.«110547_j30013231464612_1_alg».proof.Proof.LibNary3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat Cfg Window)
open Cert.KernelIdeal Cert.KernelIdeal.Gen

/-- The fold of a stretch of host operations read at one buffer: each operation's result at its own buffer is its
    function of its operands' contents, and any other buffer is as before. -/
macro "host_results" : tactic =>
  `(tactic| simp (disch := decide) only [after_cons, after_nil,
      nullary_result', unary_result', binary_result', ternary_result', reshape_result', Cert.Lib.nary3_result',
      nullary_result_ne', unary_result_ne', binary_result_ne', ternary_result_ne', reshape_result_ne', nary_result_ne'])

/-- The same fold, one rewriting step at a time: used where an operand sits under a three-way concatenate. -/
macro "host_results_rw" : tactic =>
  `(tactic| (simp only [after_cons, after_nil]
             repeat (first
               | rw [nullary_result] | rw [unary_result] | rw [binary_result] | rw [ternary_result] | rw [reshape_result]
               | rw [Cert.Lib.nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (m : (ℓ : Loc nD τ sig) → Buf (Elt Ideal) ℓ) (c : Dev nD)

set_option quotPrecheck false

local notation "aX" => m ((c : Thread nD τ).loc main_arg0)
local notation "aE" => m ((c : Thread nD τ).loc main_arg1)
local notation "aG" => m ((c : Thread nD τ).loc main_arg2)
local notation "aW1" => m ((c : Thread nD τ).loc main_arg3)
local notation "aB1" => m ((c : Thread nD τ).loc main_arg4)
local notation "aW2" => m ((c : Thread nD τ).loc main_arg5)
local notation "aB2" => m ((c : Thread nD τ).loc main_arg6)
local notation "srcV" => shapeCast S800000 (extractStridedSlice S1x800000 ![0, 0] aE slices_S2x800000_S1x800000_0_0) shapeCasts_S1x800000_S800000
local notation "dstV" => shapeCast S800000 (extractStridedSlice S1x800000 ![1, 0] aE slices_S2x800000_S1x800000_1_0) shapeCasts_S1x800000_S800000
local notation "H1" => Cert.Gin.h1 aX aE aW1 aB1 aW2 aB2
local notation "H2" => Cert.Gin.h2 aX aE aW1 aB1 aW2 aB2
local notation "H3" => Cert.Gin.h3 aX aE aW1 aB1 aW2 aB2

/-- A bias vector cast to one row and read back along that row is the vector. -/
theorem bias_row (b : FVec Ideal S128 .f32) :
    (fun i : S128.Idx => shapeCast S1x128 b shapeCasts_S128_S1x128 (ix2 0 (i 0))) = b := by
  funext i
  exact (shapeCast_a_1a_apply b shapeCasts_S128_S1x128 0 (i 0)).trans (congrArg b (eq_ix1 i).symm)

/-! ## What a stretch does not write it keeps -/

theorem W1_keep (r : Ref sig .tc) (h : r ∉ hostOps0_W) : W1 m c (Proc.devRef .tc r) = W0 m c (Proc.devRef .tc r) :=
  StableHlo.after_of_writes_sub hostOps0 _ hostOps0_writes h
theorem W3_keep (r : Ref sig .tc) (h : r ∉ hostOps1_W) : W3 m c (Proc.devRef .tc r) = W2 m c (Proc.devRef .tc r) :=
  StableHlo.after_of_writes_sub hostOps1 _ hostOps1_writes h
theorem W5_keep (r : Ref sig .tc) (h : r ∉ hostOps2_W) : W5 m c (Proc.devRef .tc r) = W4 m c (Proc.devRef .tc r) :=
  StableHlo.after_of_writes_sub hostOps2 _ hostOps2_writes h
theorem W7_keep (r : Ref sig .tc) (h : r ∉ hostOps3_W) : W7 m c (Proc.devRef .tc r) = W6 m c (Proc.devRef .tc r) :=
  StableHlo.after_of_writes_sub hostOps3 _ hostOps3_writes h

/-! ## Before region 0 -/

theorem W1_arg0 : W1 m c (Proc.devRef .tc main_arg0) = aX := (W1_keep m c main_arg0 (by decide)).trans rfl
theorem W1_arg2 : W1 m c (Proc.devRef .tc main_arg2) = aG := (W1_keep m c main_arg2 (by decide)).trans rfl
theorem W1_arg3 : W1 m c (Proc.devRef .tc main_arg3) = aW1 := (W1_keep m c main_arg3 (by decide)).trans rfl
theorem W1_arg4 : W1 m c (Proc.devRef .tc main_arg4) = aB1 := (W1_keep m c main_arg4 (by decide)).trans rfl
theorem W1_arg5 : W1 m c (Proc.devRef .tc main_arg5) = aW2 := (W1_keep m c main_arg5 (by decide)).trans rfl
theorem W1_arg6 : W1 m c (Proc.devRef .tc main_arg6) = aB2 := (W1_keep m c main_arg6 (by decide)).trans rfl

set_option maxHeartbeats 4000000 in
theorem W1_v1 : (W1 m c (Proc.devRef .tc main_v1) : S800000.Idx → BitVec 32) = srcV := by
  show StableHlo.after hostOps0 (W0 m c) (Proc.devRef .tc main_v1) = _
  host_results
  rfl
set_option maxHeartbeats 4000000 in
theorem W1_v3 : (W1 m c (Proc.devRef .tc main_v3) : S800000.Idx → BitVec 32) = dstV := by
  show StableHlo.after hostOps0 (W0 m c) (Proc.devRef .tc main_v3) = _
  host_results
  rfl
set_option maxHeartbeats 4000000 in
theorem W1_v13 : (W1 m c (Proc.devRef .tc main_v13) : S50000x128.Idx → EReal) = Cert.Gin.agg aE aX := by
  show StableHlo.after hostOps0 (W0 m c) (Proc.devRef .tc main_v13) = _
  host_results
  rfl
set_option maxHeartbeats 4000000 in
theorem W1_v15 : (W1 m c (Proc.devRef .tc main_v15) : S128x128.Idx → EReal)
    = Cert.Gin.wMat ![0, 0, 0] slices_S3x128x128_S1x128x128_0_0_0 aW1 := by
  show StableHlo.after hostOps0 (W0 m c) (Proc.devRef .tc main_v15) = _
  host_results
  rfl
set_option maxHeartbeats 4000000 in
theorem W1_v19 : (W1 m c (Proc.devRef .tc main_v19) : S128x128.Idx → EReal)
    = Cert.Gin.wMat ![0, 0, 0] slices_S3x128x128_S1x128x128_0_0_0 aW2 := by
  show StableHlo.after hostOps0 (W0 m c) (Proc.devRef .tc main_v19) = _
  host_results
  rfl
set_option maxHeartbeats 4000000 in
theorem W1_v22 : (W1 m c (Proc.devRef .tc main_v22) : S1x128.Idx → EReal)
    = shapeCast S1x128 (Cert.Gin.bVec ![0, 0] slices_S3x128_S1x128_0_0 aB1) shapeCasts_S128_S1x128 := by
  show StableHlo.after hostOps0 (W0 m c) (Proc.devRef .tc main_v22) = _
  host_results
  rfl
set_option maxHeartbeats 4000000 in
theorem W1_v23 : (W1 m c (Proc.devRef .tc main_v23) : S1x128.Idx → EReal)
    = shapeCast S1x128 (Cert.Gin.bVec ![0, 0] slices_S3x128_S1x128_0_0 aB2) shapeCasts_S128_S1x128 := by
  show StableHlo.after hostOps0 (W0 m c) (Proc.devRef .tc main_v23) = _
  host_results
  rfl

/-! ## Region 0 leaves `h1` -/

theorem W2_v24 : (W2 m c (Proc.devRef .tc main_v24) : S50000x128.Idx → EReal) = H1 := by
  refine (W2_arr m c 6).trans ((final0 (V1 m) c).trans ?_)
  show Cert.Gin.mlp (W1 m c (Proc.devRef .tc main_arg0)) (W1 m c (Proc.devRef .tc main_v13)) (W1 m c (Proc.devRef .tc main_v15))
    (fun i => W1 m c (Proc.devRef .tc main_v22) (ix2 0 (i 0))) (W1 m c (Proc.devRef .tc main_v19))
    (fun i => W1 m c (Proc.devRef .tc main_v23) (ix2 0 (i 0))) = _
  rw [W1_arg0, W1_v13, W1_v15, W1_v22, W1_v19, W1_v23, bias_row, bias_row]
  rfl

/-! ## Carried through region 0 -/

theorem W2_v1 : (W2 m c (Proc.devRef .tc main_v1) : S800000.Idx → BitVec 32) = srcV := (W2_of_ne m c main_v1 (by decide)).trans (W1_v1 m c)
theorem W2_v3 : (W2 m c (Proc.devRef .tc main_v3) : S800000.Idx → BitVec 32) = dstV := (W2_of_ne m c main_v3 (by decide)).trans (W1_v3 m c)
theorem W2_arg2 : W2 m c (Proc.devRef .tc main_arg2) = aG := (W2_of_ne m c main_arg2 (by decide)).trans (W1_arg2 m c)
theorem W2_arg3 : W2 m c (Proc.devRef .tc main_arg3) = aW1 := (W2_of_ne m c main_arg3 (by decide)).trans (W1_arg3 m c)
theorem W2_arg4 : W2 m c (Proc.devRef .tc main_arg4) = aB1 := (W2_of_ne m c main_arg4 (by decide)).trans (W1_arg4 m c)
theorem W2_arg5 : W2 m c (Proc.devRef .tc main_arg5) = aW2 := (W2_of_ne m c main_arg5 (by decide)).trans (W1_arg5 m c)
theorem W2_arg6 : W2 m c (Proc.devRef .tc main_arg6) = aB2 := (W2_of_ne m c main_arg6 (by decide)).trans (W1_arg6 m c)

/-! ## Before region 1: the neighbours' sum of `h1`, layer 2's weights and biases -/

set_option maxHeartbeats 4000000 in
theorem W3_v34 : (W3 m c (Proc.devRef .tc main_v34) : S50000x128.Idx → EReal) = Cert.Gin.agg aE H1 := by
  show StableHlo.after hostOps1 (W2 m c) (Proc.devRef .tc main_v34) = _
  host_results
  rw [W2_v3, W2_v24, W2_v1]
  rfl
set_option maxHeartbeats 4000000 in
theorem W3_v36 : (W3 m c (Proc.devRef .tc main_v36) : S128x128.Idx → EReal) = Cert.Gin.wMat ![1, 0, 0] slices_S3x128x128_S1x128x128_1_0_0 aW1 := by
  show StableHlo.after hostOps1 (W2 m c) (Proc.devRef .tc main_v36) = _
  host_results
  rw [W2_arg3]
  rfl
set_option maxHeartbeats 4000000 in
theorem W3_v40 : (W3 m c (Proc.devRef .tc main_v40) : S128x128.Idx → EReal) = Cert.Gin.wMat ![1, 0, 0] slices_S3x128x128_S1x128x128_1_0_0 aW2 := by
  show StableHlo.after hostOps1 (W2 m c) (Proc.devRef .tc main_v40) = _
  host_results
  rw [W2_arg5]
  rfl
set_option maxHeartbeats 4000000 in
theorem W3_v43 : (W3 m c (Proc.devRef .tc main_v43) : S1x128.Idx → EReal) = shapeCast S1x128 (Cert.Gin.bVec ![1, 0] slices_S3x128_S1x128_1_0 aB1) shapeCasts_S128_S1x128 := by
  show StableHlo.after hostOps1 (W2 m c) (Proc.devRef .tc main_v43) = _
  host_results
  rw [W2_arg4]
  rfl
set_option maxHeartbeats 4000000 in
theorem W3_v44 : (W3 m c (Proc.devRef .tc main_v44) : S1x128.Idx → EReal) = shapeCast S1x128 (Cert.Gin.bVec ![1, 0] slices_S3x128_S1x128_1_0 aB2) shapeCasts_S128_S1x128 := by
  show StableHlo.after hostOps1 (W2 m c) (Proc.devRef .tc main_v44) = _
  host_results
  rw [W2_arg6]
  rfl
theorem W3_v24 : (W3 m c (Proc.devRef .tc main_v24) : S50000x128.Idx → EReal) = H1 := (W3_keep m c main_v24 (by decide)).trans (W2_v24 m c)
theorem W3_v1 : (W3 m c (Proc.devRef .tc main_v1) : S800000.Idx → BitVec 32) = srcV := (W3_keep m c main_v1 (by decide)).trans (W2_v1 m c)
theorem W3_v3 : (W3 m c (Proc.devRef .tc main_v3) : S800000.Idx → BitVec 32) = dstV := (W3_keep m c main_v3 (by decide)).trans (W2_v3 m c)
theorem W3_arg2 : W3 m c (Proc.devRef .tc main_arg2) = aG := (W3_keep m c main_arg2 (by decide)).trans (W2_arg2 m c)
theorem W3_arg3 : W3 m c (Proc.devRef .tc main_arg3) = aW1 := (W3_keep m c main_arg3 (by decide)).trans (W2_arg3 m c)
theorem W3_arg4 : W3 m c (Proc.devRef .tc main_arg4) = aB1 := (W3_keep m c main_arg4 (by decide)).trans (W2_arg4 m c)
theorem W3_arg5 : W3 m c (Proc.devRef .tc main_arg5) = aW2 := (W3_keep m c main_arg5 (by decide)).trans (W2_arg5 m c)
theorem W3_arg6 : W3 m c (Proc.devRef .tc main_arg6) = aB2 := (W3_keep m c main_arg6 (by decide)).trans (W2_arg6 m c)

/-! ## Region 1 leaves `h2` -/

theorem W4_v45 : (W4 m c (Proc.devRef .tc main_v45) : S50000x128.Idx → EReal) = H2 := by
  refine (W4_arr m c 6).trans ((final1 (V3 m) c).trans ?_)
  show Cert.Gin.mlp (W3 m c (Proc.devRef .tc main_v24)) (W3 m c (Proc.devRef .tc main_v34)) (W3 m c (Proc.devRef .tc main_v36))
    (fun i => W3 m c (Proc.devRef .tc main_v43) (ix2 0 (i 0))) (W3 m c (Proc.devRef .tc main_v40))
    (fun i => W3 m c (Proc.devRef .tc main_v44) (ix2 0 (i 0))) = _
  rw [W3_v24, W3_v34, W3_v36, W3_v43, W3_v40, W3_v44, bias_row, bias_row]
  rfl
theorem W4_v24 : (W4 m c (Proc.devRef .tc main_v24) : S50000x128.Idx → EReal) = H1 := (W4_in m c 0 rfl).trans (W3_v24 m c)
theorem W4_v1 : (W4 m c (Proc.devRef .tc main_v1) : S800000.Idx → BitVec 32) = srcV := (W4_of_ne m c main_v1 (by decide)).trans (W3_v1 m c)
theorem W4_v3 : (W4 m c (Proc.devRef .tc main_v3) : S800000.Idx → BitVec 32) = dstV := (W4_of_ne m c main_v3 (by decide)).trans (W3_v3 m c)
theorem W4_arg2 : W4 m c (Proc.devRef .tc main_arg2) = aG := (W4_of_ne m c main_arg2 (by decide)).trans (W3_arg2 m c)
theorem W4_arg3 : W4 m c (Proc.devRef .tc main_arg3) = aW1 := (W4_of_ne m c main_arg3 (by decide)).trans (W3_arg3 m c)
theorem W4_arg4 : W4 m c (Proc.devRef .tc main_arg4) = aB1 := (W4_of_ne m c main_arg4 (by decide)).trans (W3_arg4 m c)
theorem W4_arg5 : W4 m c (Proc.devRef .tc main_arg5) = aW2 := (W4_of_ne m c main_arg5 (by decide)).trans (W3_arg5 m c)
theorem W4_arg6 : W4 m c (Proc.devRef .tc main_arg6) = aB2 := (W4_of_ne m c main_arg6 (by decide)).trans (W3_arg6 m c)

/-! ## Before region 2: the neighbours' sum of `h2`, layer 3's weights and biases -/

set_option maxHeartbeats 4000000 in
theorem W5_v55 : (W5 m c (Proc.devRef .tc main_v55) : S50000x128.Idx → EReal) = Cert.Gin.agg aE H2 := by
  show StableHlo.after hostOps2 (W4 m c) (Proc.devRef .tc main_v55) = _
  host_results
  rw [W4_v3, W4_v45, W4_v1]
  rfl
set_option maxHeartbeats 4000000 in
theorem W5_v57 : (W5 m c (Proc.devRef .tc main_v57) : S128x128.Idx → EReal) = Cert.Gin.wMat ![2, 0, 0] slices_S3x128x128_S1x128x128_2_0_0 aW1 := by
  show StableHlo.after hostOps2 (W4 m c) (Proc.devRef .tc main_v57) = _
  host_results
  rw [W4_arg3]
  rfl
set_option maxHeartbeats 4000000 in
theorem W5_v61 : (W5 m c (Proc.devRef .tc main_v61) : S128x128.Idx → EReal) = Cert.Gin.wMat ![2, 0, 0] slices_S3x128x128_S1x128x128_2_0_0 aW2 := by
  show StableHlo.after hostOps2 (W4 m c) (Proc.devRef .tc main_v61) = _
  host_results
  rw [W4_arg5]
  rfl
set_option maxHeartbeats 4000000 in
theorem W5_v64 : (W5 m c (Proc.devRef .tc main_v64) : S1x128.Idx → EReal) = shapeCast S1x128 (Cert.Gin.bVec ![2, 0] slices_S3x128_S1x128_2_0 aB1) shapeCasts_S128_S1x128 := by
  show StableHlo.after hostOps2 (W4 m c) (Proc.devRef .tc main_v64) = _
  host_results
  rw [W4_arg4]
  rfl
set_option maxHeartbeats 4000000 in
theorem W5_v65 : (W5 m c (Proc.devRef .tc main_v65) : S1x128.Idx → EReal) = shapeCast S1x128 (Cert.Gin.bVec ![2, 0] slices_S3x128_S1x128_2_0 aB2) shapeCasts_S128_S1x128 := by
  show StableHlo.after hostOps2 (W4 m c) (Proc.devRef .tc main_v65) = _
  host_results
  rw [W4_arg6]
  rfl
theorem W5_v45 : (W5 m c (Proc.devRef .tc main_v45) : S50000x128.Idx → EReal) = H2 := (W5_keep m c main_v45 (by decide)).trans (W4_v45 m c)
theorem W5_v24 : (W5 m c (Proc.devRef .tc main_v24) : S50000x128.Idx → EReal) = H1 := (W5_keep m c main_v24 (by decide)).trans (W4_v24 m c)
theorem W5_arg2 : W5 m c (Proc.devRef .tc main_arg2) = aG := (W5_keep m c main_arg2 (by decide)).trans (W4_arg2 m c)

/-! ## Region 2 leaves `h3` -/

theorem W6_v66 : (W6 m c (Proc.devRef .tc main_v66) : S50000x128.Idx → EReal) = H3 := by
  refine (W6_arr m c 6).trans ((final2 (V5 m) c).trans ?_)
  show Cert.Gin.mlp (W5 m c (Proc.devRef .tc main_v45)) (W5 m c (Proc.devRef .tc main_v55)) (W5 m c (Proc.devRef .tc main_v57))
    (fun i => W5 m c (Proc.devRef .tc main_v64) (ix2 0 (i 0))) (W5 m c (Proc.devRef .tc main_v61))
    (fun i => W5 m c (Proc.devRef .tc main_v65) (ix2 0 (i 0))) = _
  rw [W5_v45, W5_v55, W5_v57, W5_v64, W5_v61, W5_v65, bias_row, bias_row]
  rfl
theorem W6_v45 : (W6 m c (Proc.devRef .tc main_v45) : S50000x128.Idx → EReal) = H2 := (W6_in m c 0 rfl).trans (W5_v45 m c)
theorem W6_v24 : (W6 m c (Proc.devRef .tc main_v24) : S50000x128.Idx → EReal) = H1 := (W6_of_ne m c main_v24 (by decide)).trans (W5_v24 m c)
theorem W6_arg2 : W6 m c (Proc.devRef .tc main_arg2) = aG := (W6_of_ne m c main_arg2 (by decide)).trans (W5_arg2 m c)

/-! ## The last stretch: the results -/

set_option maxHeartbeats 16000000 in
theorem W7_v77 : (W7 m c (Proc.devRef .tc main_v77) : S50000x384.Idx → EReal) = Cert.Gin.out1 aX aE aW1 aB1 aW2 aB2 := by
  show StableHlo.after hostOps3 (W6 m c) (Proc.devRef .tc main_v77) = _
  host_results_rw
  rw [W6_v24, W6_v45, W6_v66]
  rfl
set_option maxHeartbeats 16000000 in
theorem W7_v76 : (W7 m c (Proc.devRef .tc main_v76) : S256x384.Idx → EReal) = Cert.Gin.out0 aX aE aW1 aB1 aW2 aB2 aG := by
  show StableHlo.after hostOps3 (W6 m c) (Proc.devRef .tc main_v76) = _
  host_results_rw
  rw [W6_arg2, W6_v24, W6_v45, W6_v66]
  rfl

/-! ## The run, at its results -/

/-- Every weakly fair execution of the idealized program terminates, nothing faulting, with the pooled result at the
    specification's `out0` of the arguments, the features at its `out1`, and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v76)
        = Cert.Gin.out0 (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg2))
      ∧ r.2.mem ((c.tc : Thread nD τ).loc main_v77)
        = Cert.Gin.out1 (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_v76 (by decide))).trans (W7_v76 m c),
    (h c _ (mem_uc main_v77 (by decide))).trans (W7_v77 m c),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c)⟩) (run_all m ρ)

end Cert.KernelIdeal.Fr

end
-- ==== Proof.RefLayer.lean ====
/-
  One layer of the reference program, read at an index.

  The reference computes a layer on whole arrays: two matrix products (each a sum over the one contracted axis),
  a bias row broadcast down the rows after each, and a maximum with the zero array after each.  Read at the
  index (p, q) this is
      max ( Σ_k  max( Σ_j (h + a)[p,j] · W1[j,k] + b1[k], 0 ) · W2[k,q]  +  b2[q], 0 ),
  which is the specification's perceptron row by row.
-/
import proofs.«110547_j30013231464612_1_alg».proof.Proof.Spec
import proofs.«110547_j30013231464612_1_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx

/-- The matrix product [50000,128] · [128,128] at (p, q): the sum over the contracted axis. -/
theorem dot_apply (y0 : FVec Ideal S50000x128 .f32) (y1 : FVec Ideal S128x128 .f32) (p : Fin 50000) (q : Fin 128) :
    Host.dotGeneral (F := Ideal) dot_S50000x128_S128x128_S50000x128_1_0_0_1_n_n none y0 y1 (ix2 p q)
      = ∑ k : Fin 128, y0 (ix2 p k) * y1 (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact Read.lhs_main_v17_0 _ _
    | ⟨1, _⟩ => exact (Read.lhs_main_v17_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (Read.rhs_main_v17_0 _ _).trans hk
    | ⟨1, _⟩ => exact Read.rhs_main_v17_1 _ _)
  rw [el, er]

/-- A bias vector broadcast to a row and then down the 50000 rows, at (p, q): entry q of the vector. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  generalize hy : broadcastInDim S1x128 ![1] bcast_S128_S1x128_1 b = y
  rw [broadcastInDim_apply _ bcast_S1x128_S50000x128_0_1 y (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  subst hy
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero array at any index is the extended real zero. -/
theorem zeros_apply (i : S50000x128.Idx) :
    broadcastInDim S50000x128 ![] bcast_S_S50000x128 (constant (F := Ideal) S_ .f32 0x00000000#32) i = 0 := by
  rw [broadcastInDim_apply _ bcast_S_S50000x128 (constant (F := Ideal) S_ .f32 0x00000000#32) i ix0 (fun a => a.elim0)]
  exact Ideal.ofBits_zero_f32

/-- ONE LAYER of the reference is the specification's perceptron. -/
theorem layer_eq (h a : FVec Ideal S50000x128 .f32) (w1 w2 : FVec Ideal S128x128 .f32) (b1 b2 : FVec Ideal S128 .f32) :
    maximumf (addf (Host.dotGeneral (F := Ideal) dot_S50000x128_S128x128_S50000x128_1_0_0_1_n_n none
        (maximumf (addf (Host.dotGeneral (F := Ideal) dot_S50000x128_S128x128_S50000x128_1_0_0_1_n_n none (addf h a) w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))
      = Cert.Gin.mlp h a w1 b1 w2 b2 := by
  funext i
  obtain ⟨p, q, rfl⟩ : ∃ (p : Fin 50000) (q : Fin 128), i = ix2 p q := ⟨i 0, i 1, eq_ix2 i⟩
  rw [maximumf_apply, addf_apply, zeros_apply, bias_apply, dot_apply]
  unfold Cert.Gin.mlp Cert.Gin.mlpRow
  refine congrArg (fun s => max (s + b2 (ix1 q)) 0) (Finset.sum_congr rfl fun k _ => ?_)
  rw [maximumf_apply, addf_apply, zeros_apply, bias_apply, dot_apply]
  rfl

end Cert.ReferenceIdeal.RefValue

end
-- ==== Proof.RefOut.lean ====
/-
  The reference program's two results are the specification's.

  The reference's results are the three layers' node features side by side and their per-graph sums side by side.
  Each layer is the perceptron (RefLayer) of the previous layer's features and of their neighbours' sum.  The
  neighbours' sum (a gather then a scatter-add over the edge index arrays), the per-graph sum (a scatter-add at
  the graph ids) and the slices of the stacked weights are the same operations on the same operands in the
  reference's text and in the specification's, so they are matched as they stand and never opened.
-/
import proofs.«110547_j30013231464612_1_alg».proof.Proof.RefLayer

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem

/-! ## The edge index arrays (written out once per layer in the reference, all the same) -/

theorem src1 (ei : IVec S2x800000 32) : Read.val_main_v9 (F := Ideal) ei = Cert.Gin.srcIdx ei := by
  unfold Read.val_main_v9 Read.val_main_v8 Read.val_main_v5 Read.val_main_v7 Read.val_main_v4 Read.val_main_v6 Read.val_main_c Read.val_main_c_0
    Read.val_main_v1 Read.val_main_v0 Cert.Gin.srcIdx
  rfl
theorem src2 (ei : IVec S2x800000 32) : Read.val_main_v38 (F := Ideal) ei = Cert.Gin.srcIdx ei := by
  unfold Read.val_main_v38 Read.val_main_v37 Read.val_main_v34 Read.val_main_v36 Read.val_main_v33 Read.val_main_v35 Read.val_main_c_1 Read.val_main_c_2
    Read.val_main_v1 Read.val_main_v0 Cert.Gin.srcIdx
  rfl
theorem src3 (ei : IVec S2x800000 32) : Read.val_main_v67 (F := Ideal) ei = Cert.Gin.srcIdx ei := by
  unfold Read.val_main_v67 Read.val_main_v66 Read.val_main_v63 Read.val_main_v65 Read.val_main_v62 Read.val_main_v64 Read.val_main_c_4 Read.val_main_c_5
    Read.val_main_v1 Read.val_main_v0 Cert.Gin.srcIdx
  rfl
theorem dst1 (ei : IVec S2x800000 32) : Read.val_main_v12 (F := Ideal) ei = Cert.Gin.dstIdx ei := by
  unfold Read.val_main_v12 Read.val_main_v3 Read.val_main_v2 Cert.Gin.dstIdx
  rfl
theorem dst2 (ei : IVec S2x800000 32) : Read.val_main_v41 (F := Ideal) ei = Cert.Gin.dstIdx ei := by
  unfold Read.val_main_v41 Read.val_main_v3 Read.val_main_v2 Cert.Gin.dstIdx
  rfl
theorem dst3 (ei : IVec S2x800000 32) : Read.val_main_v70 (F := Ideal) ei = Cert.Gin.dstIdx ei := by
  unfold Read.val_main_v70 Read.val_main_v3 Read.val_main_v2 Cert.Gin.dstIdx
  rfl

/-- The neighbours' sum: a scatter-add, into zeros at the destinations, of the rows gathered at the sources. -/
theorem agg_fold (ei : IVec S2x800000 32) (h z : FVec Ideal S50000x128 .f32) (d s : IVec S800000x1 32)
    (hz : z = broadcastInDim S50000x128 ![] bcast_S_S50000x128 (constant (F := Ideal) S_ .f32 0x00000000#32))
    (hd : d = Cert.Gin.dstIdx ei) (hs : s = Cert.Gin.srcIdx ei) :
    Host.scatterAdd scatter_S50000x128_S800000x1_S800000x128_1_0_0_1 z d
        (Host.gather gather_S50000x128_S800000x1_S800000x128_1_0_n_n_0_1_1128 h s) = Cert.Gin.agg ei h := by
  subst hz hd hs
  rfl

/-! ## The three layers -/

/-- Layer 1: the reference's features after it are the specification's. -/
theorem h1_eq (x : FVec Ideal S50000x128 .f32) (ei : IVec S2x800000 32) (W1 : FVec Ideal S3x128x128 .f32) (b1 : FVec Ideal S3x128 .f32)
    (W2 : FVec Ideal S3x128x128 .f32) (b2 : FVec Ideal S3x128 .f32) :
    Read.val_main_v32 (F := Ideal) x ei W1 b1 W2 b2 = Cert.Gin.h1 x ei W1 b1 W2 b2 := by
  have ea : Read.val_main_v13 (F := Ideal) x ei = Cert.Gin.agg ei x := by
    unfold Read.val_main_v13 Read.val_main_v10 Read.val_main_v11 Read.val_main_cst
    exact agg_fold ei x _ _ _ rfl (dst1 ei) (src1 ei)
  unfold Read.val_main_v32 Read.val_main_v31 Read.val_main_v26 Read.val_main_v23 Read.val_main_v22 Read.val_main_v17 Read.val_main_v14
    Read.val_main_v21 Read.val_main_v20 Read.val_main_v30 Read.val_main_v29
    Read.val_main_call0_v0 Read.val_main_call0_cst Read.val_main_call1_v0 Read.val_main_call1_cst
  rw [ea]
  exact layer_eq x (Cert.Gin.agg ei x) _ _ _ _

/-- Layer 2: the reference's features after it are the specification's. -/
theorem h2_eq (x : FVec Ideal S50000x128 .f32) (ei : IVec S2x800000 32) (W1 : FVec Ideal S3x128x128 .f32) (b1 : FVec Ideal S3x128 .f32)
    (W2 : FVec Ideal S3x128x128 .f32) (b2 : FVec Ideal S3x128 .f32) :
    Read.val_main_v61 (F := Ideal) x ei W1 b1 W2 b2 = Cert.Gin.h2 x ei W1 b1 W2 b2 := by
  have ea : Read.val_main_v42 (F := Ideal) x ei W1 b1 W2 b2 = Cert.Gin.agg ei (Cert.Gin.h1 x ei W1 b1 W2 b2) := by
    unfold Read.val_main_v42 Read.val_main_v39 Read.val_main_v40 Read.val_main_cst_3
    rw [h1_eq]
    exact agg_fold ei (Cert.Gin.h1 x ei W1 b1 W2 b2) _ _ _ rfl (dst2 ei) (src2 ei)
  unfold Read.val_main_v61 Read.val_main_v60 Read.val_main_v55 Read.val_main_v52 Read.val_main_v51 Read.val_main_v46 Read.val_main_v43
    Read.val_main_v50 Read.val_main_v49 Read.val_main_v59 Read.val_main_v58
    Read.val_main_call2_v0 Read.val_main_call2_cst Read.val_main_call3_v0 Read.val_main_call3_cst
  rw [ea, h1_eq]
  exact layer_eq (Cert.Gin.h1 x ei W1 b1 W2 b2) (Cert.Gin.agg ei (Cert.Gin.h1 x ei W1 b1 W2 b2)) _ _ _ _

/-- Layer 3: the reference's features after it are the specification's. -/
theorem h3_eq (x : FVec Ideal S50000x128 .f32) (ei : IVec S2x800000 32) (W1 : FVec Ideal S3x128x128 .f32) (b1 : FVec Ideal S3x128 .f32)
    (W2 : FVec Ideal S3x128x128 .f32) (b2 : FVec Ideal S3x128 .f32) :
    Read.val_main_v90 (F := Ideal) x ei W1 b1 W2 b2 = Cert.Gin.h3 x ei W1 b1 W2 b2 := by
  have ea : Read.val_main_v71 (F := Ideal) x ei W1 b1 W2 b2 = Cert.Gin.agg ei (Cert.Gin.h2 x ei W1 b1 W2 b2) := by
    unfold Read.val_main_v71 Read.val_main_v68 Read.val_main_v69 Read.val_main_cst_6
    rw [h2_eq]
    exact agg_fold ei (Cert.Gin.h2 x ei W1 b1 W2 b2) _ _ _ rfl (dst3 ei) (src3 ei)
  unfold Read.val_main_v90 Read.val_main_v89 Read.val_main_v84 Read.val_main_v81 Read.val_main_v80 Read.val_main_v75 Read.val_main_v72
    Read.val_main_v79 Read.val_main_v78 Read.val_main_v88 Read.val_main_v87
    Read.val_main_call4_v0 Read.val_main_call4_cst Read.val_main_call5_v0 Read.val_main_call5_cst
  rw [ea, h2_eq]
  exact layer_eq (Cert.Gin.h2 x ei W1 b1 W2 b2) (Cert.Gin.agg ei (Cert.Gin.h2 x ei W1 b1 W2 b2)) _ _ _ _

/-! ## The two results -/

/-- The per-graph sum: a scatter-add, into zeros at the graph ids, of the node rows. -/
theorem pool_fold (batch : IVec S50000 32) (h : FVec Ideal S50000x128 .f32) (z : FVec Ideal S256x128 .f32) (g : IVec S50000x1 32)
    (hz : z = broadcastInDim S256x128 ![] bcast_S_S256x128 (constant (F := Ideal) S_ .f32 0x00000000#32))
    (hg : g = broadcastInDim S50000x1 ![0] bcast_S50000_S50000x1_0 batch) :
    Host.scatterAdd scatter_S256x128_S50000x1_S50000x128_1_0_0_1 z g h = Cert.Gin.pool batch h := by
  subst hz hg
  rfl

/-- The three layers' features side by side. -/
theorem val_out1_eq (x : FVec Ideal S50000x128 .f32) (ei : IVec S2x800000 32) (W1 : FVec Ideal S3x128x128 .f32) (b1 : FVec Ideal S3x128 .f32)
    (W2 : FVec Ideal S3x128x128 .f32) (b2 : FVec Ideal S3x128 .f32) :
    Read.val_main_v101 (F := Ideal) x ei W1 b1 W2 b2 = Cert.Gin.out1 x ei W1 b1 W2 b2 := by
  unfold Read.val_main_v101 Cert.Gin.out1
  rw [h1_eq, h2_eq, h3_eq]

/-- The three layers' per-graph sums side by side. -/
theorem val_out0_eq (x : FVec Ideal S50000x128 .f32) (ei : IVec S2x800000 32) (W1 : FVec Ideal S3x128x128 .f32) (b1 : FVec Ideal S3x128 .f32)
    (W2 : FVec Ideal S3x128x128 .f32) (b2 : FVec Ideal S3x128 .f32) (batch : IVec S50000 32) :
    Read.val_main_v100 (F := Ideal) x ei batch W1 b1 W2 b2 = Cert.Gin.out0 x ei W1 b1 W2 b2 batch := by
  have p1 : Read.val_main_v93 (F := Ideal) x ei batch W1 b1 W2 b2 = Cert.Gin.pool batch (Cert.Gin.h1 x ei W1 b1 W2 b2) := by
    unfold Read.val_main_v93 Read.val_main_v91 Read.val_main_cst_7 Read.val_main_v92
    rw [h1_eq]
    exact pool_fold batch _ _ _ rfl rfl
  have p2 : Read.val_main_v96 (F := Ideal) x ei batch W1 b1 W2 b2 = Cert.Gin.pool batch (Cert.Gin.h2 x ei W1 b1 W2 b2) := by
    unfold Read.val_main_v96 Read.val_main_v94 Read.val_main_cst_8 Read.val_main_v95
    rw [h2_eq]
    exact pool_fold batch _ _ _ rfl rfl
  have p3 : Read.val_main_v99 (F := Ideal) x ei batch W1 b1 W2 b2 = Cert.Gin.pool batch (Cert.Gin.h3 x ei W1 b1 W2 b2) := by
    unfold Read.val_main_v99 Read.val_main_v97 Read.val_main_cst_9 Read.val_main_v98
    rw [h3_eq]
    exact pool_fold batch _ _ _ rfl rfl
  unfold Read.val_main_v100 Cert.Gin.out0
  rw [p1, p2, p3]

/-- The reference's second result (the features) is the specification's. -/
theorem res_out1_eq (m : (ℓ : Loc nD τ sig) → Buf (Elt Ideal) ℓ) (c : Dev nD) :
    Cert.ReferenceIdeal.Value.res_main_v101 (F := Ideal) m c
      = Cert.Gin.out1 (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) :=
  (Read.val_main_v101_eq m c).trans (val_out1_eq _ _ _ _ _ _)

/-- The reference's first result (the per-graph sums) is the specification's. -/
theorem res_out0_eq (m : (ℓ : Loc nD τ sig) → Buf (Elt Ideal) ℓ) (c : Dev nD) :
    Cert.ReferenceIdeal.Value.res_main_v100 (F := Ideal) m c
      = Cert.Gin.out0 (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg2)) :=
  (Read.val_main_v100_eq m c).trans (val_out0_eq _ _ _ _ _ _ _)

end Cert.ReferenceIdeal.RefValue

end
-- ==== Proof.lean ====
/-
  The certificate of a three-layer graph-isomorphism encoder: per layer the neighbours' sum `agg` of the node features
  `h` (a gather along the edges' sources, a scatter-add at their destinations), then the perceptron
  relu( relu( (h + agg) · W1 + b1 ) · W2 + b2 ), and at the end each layer's features pooled per graph.

  The kernel program computes the perceptron in a pallas_call per layer, tile by tile (25 tiles of 2000 rows, the
  operands rounded to bf16 before each of the two matrix products); the reference computes it with two whole-array
  products.  On the extended reals a change of float format is the identity and a tile's rows depend on that tile's
  rows only, so both are one function of the arguments (`Cert.Gin.out0`, `Cert.Gin.out1`): the neighbours' sum and
  the pooling are the same host operations on both sides and are never opened; the two matrix products are the same
  sums over the contracted axis.  No law of the extended reals beyond that is used, so the precondition (finite
  inputs) is never opened.

  The three frames: the kernel program (at the word-level instance and at the ideal one) is three regions among four
  stretches of host operations, each region's body run once at a generic grid point; the reference's frame is its
  run with the results dropped.  The idealization rewrote no operation, so `preserves` is `True`.
-/
import proofs.«110547_j30013231464612_1_alg».proof.Defs
import proofs.«110547_j30013231464612_1_alg».proof.Proof.Gen.Kernel
import proofs.«110547_j30013231464612_1_alg».proof.Proof.Gen.KernelIdeal
import proofs.«110547_j30013231464612_1_alg».proof.Proof.Gen.ReferenceIdeal
import proofs.«110547_j30013231464612_1_alg».proof.Proof.Gen.ReferenceIdeal.Run
import proofs.«110547_j30013231464612_1_alg».proof.Proof.Gen.Pre_finite_inputs
import proofs.«110547_j30013231464612_1_alg».proof.Proof.K.Run
import proofs.«110547_j30013231464612_1_alg».proof.Proof.KI.Run
import proofs.«110547_j30013231464612_1_alg».proof.Proof.KI.ValueRun
import proofs.«110547_j30013231464612_1_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with their results at the specification's two functions of arguments that agree. -/
theorem algebraic : Cert.algebraic_KernelIdeal_ReferenceIdeal := by
  intro m ρ m' ρ' _ hagree
  refine ⟨_, _, Cert.KernelIdeal.Fr.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res_out0_eq, (hagree c).1, (hagree c).2.1, (hagree c).2.2.1, (hagree c).2.2.2.1,
      (hagree c).2.2.2.2.1, (hagree c).2.2.2.2.2.1, (hagree c).2.2.2.2.2.2]
  · rw [Cert.ReferenceIdeal.RefValue.res_out1_eq, (hagree c).1, (hagree c).2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
